-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  main_v3
-- ==== Kernel.lean ====
abbrev S4x4096x64 : Shape := ⟨3, ![4, 4096, 64]⟩
abbrev S1x1 : Shape := ⟨2, ![1, 1]⟩
abbrev S1x4096x64 : Shape := ⟨3, ![1, 4096, 64]⟩
abbrev S1x256x64 : Shape := ⟨3, ![1, 256, 64]⟩
abbrev S4096x64 : Shape := ⟨2, ![4096, 64]⟩
abbrev S256x64 : Shape := ⟨2, ![256, 64]⟩
abbrev S4096 : Shape := ⟨1, ![4096]⟩
abbrev S4096x1 : Shape := ⟨2, ![4096, 1]⟩
abbrev S256 : Shape := ⟨1, ![256]⟩
abbrev S1x256 : Shape := ⟨2, ![1, 256]⟩
abbrev S64x256 : Shape := ⟨2, ![64, 256]⟩
abbrev S4096x256 : Shape := ⟨2, ![4096, 256]⟩
abbrev S1 : Shape := ⟨1, ![1]⟩
abbrev S4x4096x4096 : Shape := ⟨3, ![4, 4096, 4096]⟩
abbrev S1x512x64 : Shape := ⟨3, ![1, 512, 64]⟩
abbrev S1x512x512 : Shape := ⟨3, ![1, 512, 512]⟩
abbrev S512x64 : Shape := ⟨2, ![512, 64]⟩
abbrev S512 : Shape := ⟨1, ![512]⟩
abbrev S512x1 : Shape := ⟨2, ![512, 1]⟩
abbrev S1x512 : Shape := ⟨2, ![1, 512]⟩
abbrev S64x512 : Shape := ⟨2, ![64, 512]⟩
abbrev S512x512 : Shape := ⟨2, ![512, 512]⟩

abbrev nBuf : Space → Nat
  | .hbm => 4
  | .vmem => 14
  | .smem => 0
  | _ => 0

abbrev bufTy : (tb : Table) → Fin (tcTables nBuf tb) → BufTy
  | .hbm, ⟨0, _⟩ => ⟨S4x4096x64, .f32⟩
  | .hbm, ⟨1, _⟩ => ⟨S1x1, .f32⟩
  | .hbm, ⟨2, _⟩ => ⟨S1x1, .f32⟩
  | .hbm, ⟨3, _⟩ => ⟨S4x4096x4096, .f32⟩
  | .local _ .vmem, ⟨0, _⟩ => ⟨S1x4096x64, .f32⟩
  | .local _ .vmem, ⟨1, _⟩ => ⟨S1x4096x64, .f32⟩
  | .local _ .vmem, ⟨2, _⟩ => ⟨S1x256x64, .f32⟩
  | .local _ .vmem, ⟨3, _⟩ => ⟨S1x256x64, .f32⟩
  | .local _ .vmem, ⟨4, _⟩ => ⟨S1x1, .f32⟩
  | .local _ .vmem, ⟨5, _⟩ => ⟨S1x1, .f32⟩
  | .local _ .vmem, ⟨6, _⟩ => ⟨S1x512x64, .f32⟩
  | .local _ .vmem, ⟨7, _⟩ => ⟨S1x512x64, .f32⟩
  | .local _ .vmem, ⟨8, _⟩ => ⟨S1x512x64, .f32⟩
  | .local _ .vmem, ⟨9, _⟩ => ⟨S1x512x64, .f32⟩
  | .local _ .vmem, ⟨10, _⟩ => ⟨S1x1, .f32⟩
  | .local _ .vmem, ⟨11, _⟩ => ⟨S1x1, .f32⟩
  | .local _ .vmem, ⟨12, _⟩ => ⟨S1x512x512, .f32⟩
  | .local _ .vmem, ⟨13, _⟩ => ⟨S1x512x512, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨3, ![4, 8, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

class Facts₀ : Prop where
  inb_S1x1_S1x1_0_0 : ∀ a, (![0, 0] : Fin 2 → Nat) a + S1x1.size a ≤ S1x1.size a
  h_S1x1 : 0 < S1x1.numel
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  reduces_S4096x64_S4096 : S4096x64.Reduces [1] S4096
  shapeCasts_S4096_S4096x1 : S4096.ShapeCasts S4096x1
  reduces_S256x64_S256 : S256x64.Reduces [1] S256
  shapeCasts_S256_S1x256 : S256.ShapeCasts S1x256
  transposes_S256x64_p1_0_S64x256 : S256x64.Transposes [1, 0] S64x256
  broadcasts_S4096x1_S4096x256 : S4096x1.Broadcasts S4096x256
  broadcasts_S1x256_S4096x256 : S1x256.Broadcasts S4096x256
  reduces_S4096x256_S4096 : S4096x256.Reduces [1] S4096
  reduces_S4096x1_S1 : S4096x1.Reduces [0] S1
  shapeCasts_S1_S1x1 : S1.ShapeCasts S1x1
  shapeCasts_S1x1_S1x1 : S1x1.ShapeCasts S1x1
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  reduces_S512x64_S512 : S512x64.Reduces [1] S512
  shapeCasts_S512_S512x1 : S512.ShapeCasts S512x1
  shapeCasts_S512_S1x512 : S512.ShapeCasts S1x512
  transposes_S512x64_p1_0_S64x512 : S512x64.Transposes [1, 0] S64x512
  broadcasts_S512x1_S512x512 : S512x1.Broadcasts S512x512
  broadcasts_S1x512_S512x512 : S1x512.Broadcasts S512x512
  inpos_S1x1_p0_0 : ∀ a, (![0, 0] : Fin 2 → Nat) a < S1x1.size a
  iota_S512x512_d0_w32 : S512x512.Iotas .tc 32 [0]
  iota_S512x512_d1_w32 : S512x512.Iotas .tc 32 [1]
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S4096x64_S64x256_S4096x256_1_0_0_1_n_n_wf : DotDims.WF S4096x64 S64x256 S4096x256 [1] [0] [0] [1] [] []
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S4x4096x64.size a
  hwx0_0 : ∀ i : grid0.Coords, EltTy.bits .f32 = 32 ∨ (Rect.block (s := S4x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S4x4096x64.size a
  hwx0_1 : ∀ i : grid0.Coords, EltTy.bits .f32 = 32 ∨ (Rect.block (s := S4x4096x64) S1x256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S4x4096x64.size a
  hwx1_0 : ∀ i : grid1.Coords, EltTy.bits .f32 = 32 ∨ (Rect.block (s := S4x4096x64) S1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S4x4096x64.size a
  hwx1_1 : ∀ i : grid1.Coords, EltTy.bits .f32 = 32 ∨ (Rect.block (s := S4x4096x64) S1x512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x512.size a ≤ S4x4096x4096.size a
  hwx1_4 : ∀ i : grid1.Coords, EltTy.bits .f32 = 32 ∨ (Rect.block (s := S4x4096x4096) S1x512x512.size (cc1_transform_4 i) (hinb1_4 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_arg0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4096x4096 : Shape := ⟨2, ![4096, 4096]⟩
abbrev S1x4096x4096 : Shape := ⟨3, ![1, 4096, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S_, .f32⟩
  | .hbm, ⟨3, _⟩ => ⟨S4x4096, .f32⟩
  | .hbm, ⟨4, _⟩ => ⟨S4x4096x1, .f32⟩
  | .hbm, ⟨5, _⟩ => ⟨S4x1x4096, .f32⟩
  | .hbm, ⟨6, _⟩ => ⟨S4x4096x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096x4096, .f32⟩
  | .hbm, ⟨19, _⟩ => ⟨S4x4096x4096, .i1⟩
  | .hbm, ⟨20, _⟩ => ⟨S_, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096x4096, .f32⟩
  | .hbm, ⟨26, _⟩ => ⟨S4x4096x4096, .i1⟩
  | .hbm, ⟨27, _⟩ => ⟨S4x4096x4096, .f32⟩
  | .hbm, ⟨28, _⟩ => ⟨S_, .f32⟩
  | .hbm, ⟨29, _⟩ => ⟨S_, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4x4096x4096, .f32⟩
  | .hbm, ⟨47, _⟩ => ⟨S4x4096x4096, .f32⟩
  | .hbm, ⟨48, _⟩ => ⟨S_, .f32⟩
  | .hbm, ⟨49, _⟩ => ⟨S4x4096x4096, .f32⟩
  | .hbm, ⟨50, _⟩ => ⟨S4x4096x4096, .f32⟩
  | .hbm, ⟨51, _⟩ => ⟨S4096x4096, .i32⟩
  | .hbm, ⟨52, _⟩ => ⟨S4096x4096, .i32⟩
  | .hbm, ⟨53, _⟩ => ⟨S_, .i32⟩
  | .hbm, ⟨54, _⟩ => ⟨S4096x4096, .i32⟩
  | .hbm, ⟨55, _⟩ => ⟨S4096x4096, .i32⟩
  | .hbm, ⟨56, _⟩ => ⟨S4096x4096, .i1⟩
  | .hbm, ⟨57, _⟩ => ⟨S1x4096x4096, .i1⟩
  | .hbm, ⟨58, _⟩ => ⟨S_, .f32⟩
  | .hbm, ⟨59, _⟩ => ⟨S4x4096x4096, .i1⟩
  | .hbm, ⟨60, _⟩ => ⟨S4x4096x4096, .f32⟩
  | .hbm, ⟨61, _⟩ => ⟨S4x4096x4096, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_call2_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_call3_v0 : Ref sig .tc := ⟨.hbm, 59, rfl⟩
abbrev main_call3_v1 : Ref sig .tc := ⟨.hbm, 60, rfl⟩
abbrev main_v39 : Ref sig .tc := ⟨.hbm, 61, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  dot_S4x4096x64_S4x4096x64_S4x4096x4096_2_2_1_1_0_0_wf : DotDims.WF S4x4096x64 S4x4096x64 S4x4096x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.Body0.lean ====
/-
  The first kernel's body on any staging buffers: it reads a whole matrix and one block of 256 of its rows, and folds
  the least and the greatest of their pairwise distances into two one-word accumulators, which the very first grid
  point starts at +∞ and −∞.
-/
import proofs.«160997_j46858093199670_1_alg».proof.Proof.Gen.KernelIdeal.Launch
import proofs.«160997_j46858093199670_1_alg».proof.Proof.Gen.KernelIdeal.Skeleton
import proofs.«160997_j46858093199670_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem z3 : (![0, 0, 0] : Fin 3 → Nat) = fun _ => 0 := by funext a; fin_cases a <;> rfl
theorem z2 : (![0, 0] : Fin 2 → Nat) = fun _ => 0 := by funext a; fin_cases a <;> rfl

/-- The body's branch: taken at the grid point (0, 0) only. -/
abbrev isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

theorem isFirst_iff : ∀ t : Fin cfg0.N, isFirst (grid0.coords t) ↔ t.val = 0 :=
  (by decide +kernel : ∀ t : Fin grid0.N, isFirst (grid0.coords t) ↔ t.val = 0)

/-- The minimum accumulator after the body, from the matrix, the row block and the accumulator before. -/
def minOut (x0 : Vec F S1x4096x64 .f32) (x1 : Vec F S1x256x64 .f32) (a : Vec F S1x1 .f32) : Vec F S1x1 .f32 :=
  k0_pay6 x0 x1 a
/-- The maximum accumulator after the body. -/
def maxOut (x0 : Vec F S1x4096x64 .f32) (x1 : Vec F S1x256x64 .f32) (a : Vec F S1x1 .f32) : Vec F S1x1 .f32 :=
  k0_pay1 (k0_pay5 x0 x1) a

set_option maxHeartbeats 1000000 in
/-- At the first grid point: the accumulators are reset, then folded. -/
theorem sound_reduce_first (c : Dev nD) (E : Set ℕ) (i : grid0.Coords) (hc : isFirst i)
    (arg2 : Memref sig .tc .vmem S1x4096x64 .f32) (harg2 : arg2.IsWhole) (arg3 : Memref sig .tc .vmem S1x256x64 .f32) (harg3 : arg3.IsWhole)
    (arg4 : Memref sig .tc .vmem S1x1 .f32) (harg4 : arg4.IsWhole) (arg5 : Memref sig .tc .vmem S1x1 .f32) (harg5 : arg5.IsWhole)
    (x0 : Vec F S1x4096x64 .f32) (x1 : Vec F S1x256x64 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (minOut x0 x1 (k0_pay2 (F := F)))
            ∗ owns (c : Thread nD τ) arg5 fullShare (maxOut x0 x1 (k0_pay3 (F := F)))) -∗ K ⟨⟩))
      ⊢ wp frame (wpE (defs₀ (F := F)) Variants.none c none) E (cc0__reduce_kernel i arg2 harg2 arg3 harg3 arg4 harg4 arg5 harg5) K := by
  simp only [cc0__reduce_kernel_eq_skeleton]; unfold cc0__reduce_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (fun y => ⟨_, List.mem_cons_self, View.mem_set_unit_zero (S := S1x1) z2 inb_S1x1_S1x1_0_0 y⟩),
      View.canon_cons_unit_zero (S := S1x1) z2]
    unfold minOut
    sl_unfold_run_names
    simp only [View.readAt_eq_ld]
    have e0 : ∀ X : S1x4096x64.Idx → Elt F .f32,
        View.ld X (Rect.unit (s := S1x4096x64) ![0, 0, 0] S1x4096x64.size inb_S1x4096x64_S1x4096x64_0_0_0) = X :=
      fun X => View.ld_unit_zero (S := S1x4096x64) z3 _ X
    have e1 : ∀ X : S1x256x64.Idx → Elt F .f32,
        View.ld X (Rect.unit (s := S1x256x64) ![0, 0, 0] S1x256x64.size inb_S1x256x64_S1x256x64_0_0_0) = X :=
      fun X => View.ld_unit_zero (S := S1x256x64) z3 _ X
    have e2 : ∀ X : S1x1.Idx → Elt F .f32,
        View.ld X (Rect.unit (s := S1x1) ![0, 0] S1x1.size inb_S1x1_S1x1_0_0) = X :=
      fun X => View.ld_unit_zero (S := S1x1) z2 _ X
    exact congr (congr (congrArg k0_pay6 (e0 _)) (e1 _)) (View.readCov_unit_zero (S := S1x1) arg4.view z2 _ _)

  iexists _; isplitr
  swap; · iexact H5
  ipureintro
  rw [View.read_writes_eq_canon _ _ _ (fun y => ⟨_, List.mem_cons_self, View.mem_set_unit_zero (S := S1x1) z2 inb_S1x1_S1x1_0_0 y⟩),
    View.canon_cons_unit_zero (S := S1x1) z2]
  unfold maxOut
  sl_unfold_run_names
  simp only [View.readAt_eq_ld]
  · have e0 : ∀ X : S1x4096x64.Idx → Elt F .f32,
        View.ld X (Rect.unit (s := S1x4096x64) ![0, 0, 0] S1x4096x64.size inb_S1x4096x64_S1x4096x64_0_0_0) = X :=
      fun X => View.ld_unit_zero (S := S1x4096x64) z3 _ X
    have e1 : ∀ X : S1x256x64.Idx → Elt F .f32,
        View.ld X (Rect.unit (s := S1x256x64) ![0, 0, 0] S1x256x64.size inb_S1x256x64_S1x256x64_0_0_0) = X :=
      fun X => View.ld_unit_zero (S := S1x256x64) z3 _ X
    have e2 : ∀ X : S1x1.Idx → Elt F .f32,
        View.ld X (Rect.unit (s := S1x1) ![0, 0] S1x1.size inb_S1x1_S1x1_0_0) = X :=
      fun X => View.ld_unit_zero (S := S1x1) z2 _ X
    exact congr (congrArg k0_pay1 (congr (congrArg k0_pay5 (e0 _)) (e1 _))) (View.readCov_unit_zero (S := S1x1) arg5.view z2 _ _)

set_option maxHeartbeats 1000000 in
/-- At every later grid point: the accumulators are folded. -/
theorem sound_reduce_later (c : Dev nD) (E : Set ℕ) (i : grid0.Coords) (hc : ¬ isFirst i)
    (arg2 : Memref sig .tc .vmem S1x4096x64 .f32) (harg2 : arg2.IsWhole) (arg3 : Memref sig .tc .vmem S1x256x64 .f32) (harg3 : arg3.IsWhole)
    (arg4 : Memref sig .tc .vmem S1x1 .f32) (harg4 : arg4.IsWhole) (arg5 : Memref sig .tc .vmem S1x1 .f32) (harg5 : arg5.IsWhole)
    (x0 : Vec F S1x4096x64 .f32) (x1 : Vec F S1x256x64 .f32) (a4 a5 : Vec F S1x1 .f32) (K : PUnit → sProp 𝕄) :
    iprop(owns (c : Thread nD τ) arg2 fullShare x0 ∗ owns (c : Thread nD τ) arg3 fullShare x1
        ∗ owns (c : Thread nD τ) arg4 fullShare a4 ∗ owns (c : Thread nD τ) arg5 fullShare a5
        ∗ (iprop(owns (c : Thread nD τ) arg2 fullShare x0 ∗ owns (c : Thread nD τ) arg3 fullShare x1
            ∗ owns (c : Thread nD τ) arg4 fullShare (minOut x0 x1 a4)
            ∗ owns (c : Thread nD τ) arg5 fullShare (maxOut x0 x1 a5)) -∗ K ⟨⟩))
      ⊢ wp frame (wpE (defs₀ (F := F)) Variants.none c none) E (cc0__reduce_kernel i arg2 harg2 arg3 harg3 arg4 harg4 arg5 harg5) K := by
  simp only [cc0__reduce_kernel_eq_skeleton]; unfold cc0__reduce_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (fun y => ⟨_, List.mem_cons_self, View.mem_set_unit_zero (S := S1x1) z2 inb_S1x1_S1x1_0_0 y⟩),
      View.canon_cons_unit_zero (S := S1x1) z2]
    unfold minOut
    sl_unfold_run_names
    simp only [View.readAt_eq_ld]
    have e0 : ∀ X : S1x4096x64.Idx → Elt F .f32,
        View.ld X (Rect.unit (s := S1x4096x64) ![0, 0, 0] S1x4096x64.size inb_S1x4096x64_S1x4096x64_0_0_0) = X :=
      fun X => View.ld_unit_zero (S := S1x4096x64) z3 _ X
    have e1 : ∀ X : S1x256x64.Idx → Elt F .f32,
        View.ld X (Rect.unit (s := S1x256x64) ![0, 0, 0] S1x256x64.size inb_S1x256x64_S1x256x64_0_0_0) = X :=
      fun X => View.ld_unit_zero (S := S1x256x64) z3 _ X
    have e2 : ∀ X : S1x1.Idx → Elt F .f32,
        View.ld X (Rect.unit (s := S1x1) ![0, 0] S1x1.size inb_S1x1_S1x1_0_0) = X :=
      fun X => View.ld_unit_zero (S := S1x1) z2 _ X
    exact congr (congr (congrArg k0_pay6 (e0 _)) (e1 _)) (e2 _)

  iexists _; isplitr
  swap; · iexact H5
  ipureintro
  rw [View.read_writes_eq_canon _ _ _ (fun y => ⟨_, List.mem_cons_self, View.mem_set_unit_zero (S := S1x1) z2 inb_S1x1_S1x1_0_0 y⟩),
    View.canon_cons_unit_zero (S := S1x1) z2]
  unfold maxOut
  sl_unfold_run_names
  simp only [View.readAt_eq_ld]
  · have e0 : ∀ X : S1x4096x64.Idx → Elt F .f32,
        View.ld X (Rect.unit (s := S1x4096x64) ![0, 0, 0] S1x4096x64.size inb_S1x4096x64_S1x4096x64_0_0_0) = X :=
      fun X => View.ld_unit_zero (S := S1x4096x64) z3 _ X
    have e1 : ∀ X : S1x256x64.Idx → Elt F .f32,
        View.ld X (Rect.unit (s := S1x256x64) ![0, 0, 0] S1x256x64.size inb_S1x256x64_S1x256x64_0_0_0) = X :=
      fun X => View.ld_unit_zero (S := S1x256x64) z3 _ X
    have e2 : ∀ X : S1x1.Idx → Elt F .f32,
        View.ld X (Rect.unit (s := S1x1) ![0, 0] S1x1.size inb_S1x1_S1x1_0_0) = X :=
      fun X => View.ld_unit_zero (S := S1x1) z2 _ X
    exact congr (congrArg k0_pay1 (congr (congrArg k0_pay5 (e0 _)) (e1 _))) (e2 _)

end Cert.KernelIdeal.Hand0

end
-- ==== Proof.Dat0.lean ====
/-
  The first region's proof data: what each of its four windows' staging buffers holds after the body at each of the
  64 grid points — the two inputs their blocks, the two accumulators the least and the greatest distance met so far —
  and the body's obligation at every point.
-/
import proofs.«160997_j46858093199670_1_alg».proof.Proof.Gen.KernelIdeal.Launch
import proofs.«160997_j46858093199670_1_alg».proof.Proof.Gen.KernelIdeal.Skeleton
import proofs.«160997_j46858093199670_1_alg».proof.Proof.Gen.KernelIdeal.Points
import proofs.«160997_j46858093199670_1_alg».proof.Proof.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The least distance met up to and including point `n`: from +∞, folded point by point. -/
def accMin (c : Dev nD) : (n : Nat) → n < cfg0.N → Vec F S1x1 .f32
  | 0, h => minOut (iblk V c 0 ⟨0, h⟩) (iblk V c 1 ⟨0, h⟩) (k0_pay2 (F := F))
  | n + 1, h => minOut (iblk V c 0 ⟨n + 1, h⟩) (iblk V c 1 ⟨n + 1, h⟩) (accMin c n (Nat.lt_of_succ_lt h))

/-- The greatest distance met up to and including point `n`: from −∞. -/
def accMax (c : Dev nD) : (n : Nat) → n < cfg0.N → Vec F S1x1 .f32
  | 0, h => maxOut (iblk V c 0 ⟨0, h⟩) (iblk V c 1 ⟨0, h⟩) (k0_pay3 (F := F))
  | n + 1, h => maxOut (iblk V c 0 ⟨n + 1, h⟩) (iblk V c 1 ⟨n + 1, h⟩) (accMax c n (Nat.lt_of_succ_lt h))

/-- The proof data: the two input windows share the argument array, each holding half of it. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accMin V c t.val t.isLt
    | ⟨3, _⟩ => accMax V c t.val t.isLt
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = accMin V c t.val t.isLt := by dsimp only [dat]
theorem after_3 (c : Dev nD) (t : Fin cfg0.N) : (dat V c).after 3 t = accMax V c t.val t.isLt := by dsimp only [dat]

/-- An input's buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem lt64 (t : Fin cfg0.N) : t.val < 64 := lt_of_lt_of_eq t.isLt N_0

/-- An accumulator's buffer is written back at the last point only, so after the first point it holds what the
    point before left. -/
theorem before_2 (c : Dev nD) (t : Fin cfg0.N) (ht : t.val ≠ 0) (d) :
    (dat V c).before 2 t d = (dat V c).after 2 ⟨t.val - 1, Nat.lt_of_le_of_lt (Nat.sub_le _ _) t.isLt⟩ :=
  (dat V c).before_out_kept 2 rfl t ht
    (Bool.eq_false_iff.mpr fun h => by have h1 := (flush0_2 _).mp h; have h2 := lt64 t; change (t.val - 1) % 64 = 63 at h1; omega)
    (fun _ => rfl) (fun _ _ => rfl) d
theorem before_3 (c : Dev nD) (t : Fin cfg0.N) (ht : t.val ≠ 0) (d) :
    (dat V c).before 3 t d = (dat V c).after 3 ⟨t.val - 1, Nat.lt_of_le_of_lt (Nat.sub_le _ _) t.isLt⟩ :=
  (dat V c).before_out_kept 3 rfl t ht
    (Bool.eq_false_iff.mpr fun h => by have h1 := (flush0_3 _).mp h; have h2 := lt64 t; change (t.val - 1) % 64 = 63 at h1; omega)
    (fun _ => rfl) (fun _ _ => rfl) d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3]
  by_cases ht : t.val = 0
  · obtain ⟨n, hn⟩ := t
    obtain rfl : n = 0 := ht
    iintro ⟨HΦ, Ho, ⟨%d0, H0⟩, ⟨%d1, H1⟩, H2, H3⟩
    iapply (sound_reduce_first c Set.univ _ ((isFirst_iff ⟨0, hn⟩).mpr rfl) _ _ _ _ _ _ _ _ (iblk V c 0 ⟨0, hn⟩) (iblk V c 1 ⟨0, hn⟩) _)
    isplitl [H0]; · iexact H0
    isplitl [H1]; · iexact H1
    isplitl [H2]
    · icases H2 with ⟨%d2, H2⟩; iexists _; iexact H2
    isplitl [H3]
    · icases H3 with ⟨%d3, H3⟩; iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · obtain ⟨n, hn⟩ := t
    obtain ⟨k, rfl⟩ : ∃ k, n = k + 1 := ⟨n - 1, by simp only at ht; omega⟩
    simp only [before_2 V c ⟨k + 1, hn⟩ (by simp), before_3 V c ⟨k + 1, hn⟩ (by simp), after_2, after_3]
    iintro ⟨HΦ, Ho, ⟨%d0, H0⟩, ⟨%d1, H1⟩, ⟨%d2, H2⟩, ⟨%d3, H3⟩⟩
    iapply (sound_reduce_later c Set.univ _ (fun h => ht ((isFirst_iff ⟨k + 1, hn⟩).mp h)) _ _ _ _ _ _ _ _
      (iblk V c 0 ⟨k + 1, hn⟩) (iblk V c 1 ⟨k + 1, hn⟩) (accMin V c k (Nat.lt_of_succ_lt hn)) (accMax V c k (Nat.lt_of_succ_lt hn)) _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem body_obligation (c : Dev nD) : BodyObligation (dat (F := F) V c) (defs₀ (F := F)) Variants.none () Set.univ := fun t => by
  rw [bigSep_W0, bigSep_W0]
  exact sound_body V c t

end Cert.KernelIdeal.Hand0

end
-- ==== Proof.Body1.lean ====
/-
  The second kernel's body on any staging buffers: it reads its two row blocks and the two scalars the first
  kernel left, and stores one tile of the normalized distance matrix.
-/
import proofs.«160997_j46858093199670_1_alg».proof.Proof.Gen.KernelIdeal.Launch
import proofs.«160997_j46858093199670_1_alg».proof.Proof.Gen.KernelIdeal.Skeleton
import proofs.«160997_j46858093199670_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile the body stores, from the row block, the column block, the minimum and the maximum it was handed. -/
def tileOut (i : grid1.Coords) (x0 x1 : Vec F S1x512x64 .f32) (x2 x3 : Vec F S1x1 .f32) : Vec F S1x512x512 .f32 :=
  k1_pay1 (k1_pay2 x0 x1 x2 x3) (k1_pay3 i) (Scalar.ofBits .f32 0x3F800000#32)

theorem z3 : (![0, 0, 0] : Fin 3 → Nat) = fun _ => 0 := by funext a; fin_cases a <;> rfl
theorem z2 : (![0, 0] : Fin 2 → Nat) = fun _ => 0 := by funext a; fin_cases a <;> rfl

set_option maxHeartbeats 1000000 in
theorem sound_norm (c : Dev nD) (E : Set ℕ) (i : grid1.Coords)
    (arg3 : Memref sig .tc .vmem S1x512x64 .f32) (harg3 : arg3.IsWhole) (arg4 : Memref sig .tc .vmem S1x512x64 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x512x512 .f32) (harg7 : arg7.IsWhole)
    (x0 x1 : Vec F S1x512x64 .f32) (x2 x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (tileOut i x0 x1 x2 x3)) -∗ K ⟨⟩))
      ⊢ wp frame (wpE (defs₀ (F := F)) Variants.none c none) E (cc1__norm_kernel i arg3 harg3 arg4 harg4 arg5 harg5 arg6 harg6 arg7 harg7) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero (S := S1x512x512) z3 inb_S1x512x512_S1x512x512_0_0_0 y⟩),
    View.canon_unit_zero (S := S1x512x512) z3]
  unfold tileOut
  sl_unfold_run_names
  simp only [View.readAt_eq_ld]
  have e0 : ∀ X : S1x512x64.Idx → Elt F .f32,
      View.ld X (Rect.unit (s := S1x512x64) ![0, 0, 0] S1x512x64.size inb_S1x512x64_S1x512x64_0_0_0) = X :=
    fun X => View.ld_unit_zero (S := S1x512x64) z3 _ X
  have e1 : ∀ X : S1x1.Idx → Elt F .f32,
      View.ld X (Rect.unit (s := S1x1) ![0, 0] S1x1.size inb_S1x1_S1x1_0_0) = X :=
    fun X => View.ld_unit_zero (S := S1x1) z2 _ X
  refine congrArg (fun z => k1_pay1 z (k1_pay3 i) _) ?_
  exact congr (congr (congr (congrArg k1_pay2 (e0 _)) (e0 _)) (e1 _)) (e1 _)

end Cert.KernelIdeal.Hand

end
-- ==== Proof.Dat1.lean ====
/-
  The second region's proof data: what each of its five windows' staging buffers holds after the body at each of
  the 256 grid points — the four inputs their blocks (two row blocks of the argument, and the two one-word arrays
  the first region wrote), the output the tile of normalized distances — and the body's obligation at every point.
-/
import proofs.«160997_j46858093199670_1_alg».proof.Proof.Gen.KernelIdeal.Launch
import proofs.«160997_j46858093199670_1_alg».proof.Proof.Gen.KernelIdeal.Skeleton
import proofs.«160997_j46858093199670_1_alg».proof.Proof.Gen.KernelIdeal.Points
import proofs.«160997_j46858093199670_1_alg».proof.Proof.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the two row windows share the argument array, each holding half of it. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => tileOut (grid1.coords t) (iblk V c 0 t) (iblk V c 1 t) (iblk V c 2 t) (iblk V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = tileOut (grid1.coords t) (iblk V c 0 t) (iblk V c 1 t) (iblk V c 2 t) (iblk V c 3 t) := by dsimp only [dat]

/-- An input's buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_norm c Set.univ (grid1.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dat (F := F) V c) (defs₀ (F := F)) Variants.none () Set.univ := fun t => by
  rw [bigSep_W1, bigSep_W1]
  exact sound_body V c t

end Cert.KernelIdeal.Hand

end
-- ==== Proof.Run.lean ====
/-
  The whole run of @main: its two kernel regions in order, from the launch to the return. Between the regions every
  unscoped buffer is held whole — the argument as launched, the two one-word arrays at what the first region's
  write-backs leave, the result at what the second region's leave. The two input windows of each region share the
  argument array: each is lent half of it at the region's entry, and the halves are joined again at its exit.
-/
import proofs.«160997_j46858093199670_1_alg».proof.Proof.Gen.KernelIdeal.Launch
import proofs.«160997_j46858093199670_1_alg».proof.Proof.Gen.KernelIdeal.Skeleton
import proofs.«160997_j46858093199670_1_alg».proof.Proof.Gen.KernelIdeal.Points
import proofs.«160997_j46858093199670_1_alg».proof.Proof.Dat0
import proofs.«160997_j46858093199670_1_alg».proof.Proof.Dat1
import proofs.«160997_j46858093199670_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev W0 : Dev nD → Valuation τ sig (Elt F) := fun c b => m (c, b)
abbrev Vt0 : (c : Dev nD) → (b : Ref sig .tc) → Buf (Elt F) ((c : Thread nD τ).loc b) := fun c b => W0 m c b
/-- After the first region: the two accumulators written back. -/
def W1 (c : Dev nD) : Valuation τ sig (Elt F) :=
  Function.update (Function.update (W0 m c) main_v0_0 ((Hand0.dat (Vt0 m) c).arrAt 2 cfg0.N)) main_v0_1 ((Hand0.dat (Vt0 m) c).arrAt 3 cfg0.N)
abbrev Vt1 : (c : Dev nD) → (b : Ref sig .tc) → Buf (Elt F) ((c : Thread nD τ).loc b) := fun c b => W1 m c b
/-- After the second region: the result written back. -/
def W2 (c : Dev nD) : Valuation τ sig (Elt F) :=
  Function.update (W1 m c) main_v1 ((Hand.dat (Vt1 m) c).arrAt 4 cfg1.N)

theorem ne01 : (Proc.devRef .tc main_v0_0 : DevRef τ sig) ≠ Proc.devRef .tc main_v0_1 := StableHlo.devRef_ne_of_ne (by decide)
theorem W1_arg0 (c : Dev nD) : W1 m c main_arg0 = W0 m c main_arg0 := by
  unfold W1
  rw [Function.update_of_ne (StableHlo.devRef_ne_of_ne (by decide)), Function.update_of_ne (StableHlo.devRef_ne_of_ne (by decide))]
theorem W1_v1 (c : Dev nD) : W1 m c main_v1 = W0 m c main_v1 := by
  unfold W1
  rw [Function.update_of_ne (StableHlo.devRef_ne_of_ne (by decide)), Function.update_of_ne (StableHlo.devRef_ne_of_ne (by decide))]
theorem W1_v0_0 (c : Dev nD) : W1 m c main_v0_0 = (Hand0.dat (Vt0 m) c).arrAt 2 cfg0.N := by
  unfold W1
  rw [Function.update_of_ne (StableHlo.devRef_ne_of_ne (by decide)), Function.update_self]
theorem W1_v0_1 (c : Dev nD) : W1 m c main_v0_1 = (Hand0.dat (Vt0 m) c).arrAt 3 cfg0.N := by
  unfold W1
  rw [Function.update_self]
theorem W2_arg0 (c : Dev nD) : W2 m c main_arg0 = W0 m c main_arg0 := by
  unfold W2
  rw [Function.update_of_ne (StableHlo.devRef_ne_of_ne (by decide))]; exact W1_arg0 m c
theorem W2_v0_0 (c : Dev nD) : W2 m c main_v0_0 = W1 m c main_v0_0 := by
  unfold W2
  rw [Function.update_of_ne (StableHlo.devRef_ne_of_ne (by decide))]
theorem W2_v0_1 (c : Dev nD) : W2 m c main_v0_1 = W1 m c main_v0_1 := by
  unfold W2
  rw [Function.update_of_ne (StableHlo.devRef_ne_of_ne (by decide))]
theorem W2_v1 (c : Dev nD) : W2 m c main_v1 = (Hand.dat (Vt1 m) c).arrAt 4 cfg1.N := by
  unfold W2
  rw [Function.update_self]

/-! ## The unscoped buffers, one by one -/

/-- A core's four unscoped buffers at a valuation, listed. -/
def four (c : Dev nD) (W : Valuation τ sig (Elt F)) : sProp 𝕄 :=
  iprop(((((c : Thread nD τ).loc main_arg0) ↦{fullShare} W main_arg0) ∗ (((c : Thread nD τ).loc main_v0_0) ↦{fullShare} W main_v0_0)
    ∗ (((c : Thread nD τ).loc main_v0_1) ↦{fullShare} W main_v0_1)) ∗ (((c : Thread nD τ).loc main_v1) ↦{fullShare} W main_v1))

theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0_0) ↦{fullShare} V main_v0_0)
        ∗ (((c : Thread nD τ).loc main_v0_1) ↦{fullShare} V main_v0_1)) := by
  unfold Pipeline.arrBufs
  exact bigSep_eq_bigSepL_of_eq [main_arg0, main_v0_0, main_v0_1] (by decide) (by decide) _

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v0_0) ↦{fullShare} V main_v0_0)
        ∗ (((c : Thread nD τ).loc main_v0_1) ↦{fullShare} V main_v0_1) ∗ (((c : Thread nD τ).loc main_v1) ↦{fullShare} V main_v1)) := by
  unfold Pipeline.arrBufs
  exact bigSep_eq_bigSepL_of_eq [main_arg0, main_v0_0, main_v0_1, main_v1] (by decide) (by decide) _

/-- The set of unscoped buffers held at a valuation is the four buffers. -/
theorem held_four (c : Dev nD) (W : Valuation τ sig (Elt F)) :
    (StableHlo.held (c : Thread nD τ) (Pipeline.ucRefs τ sig) W : sProp 𝕄) = four c W := by
  rw [← Pipeline.unscopedBufs_held (Ix := Unit) (Name := ℕ) (U := UR sig nD τ) (Lvl := ℕ) c W,
    Pipeline.unscopedBufs_split₀ (p := (0 : Fin 2)) cfgs winFacts₀0.arr_unscoped c (fun b => W b)]
  show iprop((Pipeline.arrBufs spec0 c fun b => W (Proc.tc.devRef b)) ∗ Pipeline.unscopedRest spec0 c fun b => W (Proc.tc.devRef b)) = _
  rw [arrBufs0_eq, unscopedRest0_eq]
  rfl

/-! ## The proof data family and what rides beside the buffers -/

def pdats : (p : Fin 2) → (c : Dev nD) → Dat τ (Elt F) Unit ℕ (UR sig nD τ) ℕ (Pipeline.pin (pcfgs (F := F)) adm p) c
  | ⟨0, _⟩ => fun c => Hand0.dat (Vt0 m) c
  | ⟨1, _⟩ => fun c => Hand.dat (Vt1 m) c
abbrev 𝒱₀ : Variants := Variants.none
abbrev L : GSem nD τ sig → Finset Unit := fun _ => ∅
abbrev lv : GSem nD τ sig → Unit → ℕ := fun _ _ => 0
/-- The generator register at some state, and the core owing nothing. -/
abbrev Rr (c : Dev nD) : sProp 𝕄 := iprop((∃ r, prngReg c r) ∗ ∃ W, owes (c : Thread nD τ) (0 : CellTallies nD τ sig Unit) W)

/-- The first region's arrays, window by window: the argument at two half shares, the accumulators outright. -/
theorem arrays0 (c : Dev nD) (A : (w : Fin cfg0.W) → Buf (Elt F) ((cfg0.win w).arr.view.loc (c : Thread nD τ))) :
    ((Hand0.dat (Vt0 m) c).arrays A : sProp 𝕄)
      = iprop((((c : Thread nD τ).loc main_arg0) ↦{fullShare.left} A 0) ∗ (((c : Thread nD τ).loc main_arg0) ↦{fullShare.right} A 1)
        ∗ (((c : Thread nD τ).loc main_v0_0) ↦{fullShare} A 2) ∗ (((c : Thread nD τ).loc main_v0_1) ↦{fullShare} A 3)) := by
  have h : ((Hand0.dat (Vt0 m) c).arrays A : sProp 𝕄) = bigSep Finset.univ fun w : Fin cfg0.W =>
      (((c : Thread nD τ).loc (Pipeline.arrRef spec0 w)) ↦{(Hand0.dat (Vt0 m) c).share w} A w : sProp 𝕄) := by
    unfold Dat.arrays
    exact bigSep_congr fun w _ => by rw [(arr_whole0 w).set_eq_univ]
  rw [h, bigSep_W0]
  rfl

/-- The second region's arrays, window by window. -/
theorem arrays1 (c : Dev nD) (A : (w : Fin cfg1.W) → Buf (Elt F) ((cfg1.win w).arr.view.loc (c : Thread nD τ))) :
    ((Hand.dat (Vt1 m) c).arrays A : sProp 𝕄)
      = iprop((((c : Thread nD τ).loc main_arg0) ↦{fullShare.left} A 0) ∗ (((c : Thread nD τ).loc main_arg0) ↦{fullShare.right} A 1)
        ∗ (((c : Thread nD τ).loc main_v0_0) ↦{fullShare} A 2) ∗ (((c : Thread nD τ).loc main_v0_1) ↦{fullShare} A 3)
        ∗ (((c : Thread nD τ).loc main_v1) ↦{fullShare} A 4)) := by
  have h : ((Hand.dat (Vt1 m) c).arrays A : sProp 𝕄) = bigSep Finset.univ fun w : Fin cfg1.W =>
      (((c : Thread nD τ).loc (Pipeline.arrRef spec1 w)) ↦{(Hand.dat (Vt1 m) c).share w} A w : sProp 𝕄) := by
    unfold Dat.arrays
    exact bigSep_congr fun w _ => by rw [(arr_whole1 w).set_eq_univ]
  rw [h, bigSep_W1]
  rfl

/-- A buffer held whole is held at its two halves. -/
theorem share_eq (ℓ : Loc nD τ sig) (f : Buf (Elt F) ℓ) :
    (ℓ ↦{fullShare} f : sProp 𝕄) = iprop((ℓ ↦{fullShare.left} f) ∗ (ℓ ↦{fullShare.right} f)) :=
  BI.Entails.antisymm (pointsTo_share (PosShare.mem_left_op_right fullShare)).1 (pointsTo_share (PosShare.mem_left_op_right fullShare)).2

/-! ## The regions as segments -/

set_option backward.isDefEq.respectTransparency.types false in
/-- The first region: entered from the buffers as launched, left with the two accumulators written back. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Hand0.body_obligation (Vt0 m) c).loose
  hwaits := Pipeline.hwaits_of_owed_zero _ _ _ _ L lv 0 fun _ _ => rfl
  pre c := iprop(StableHlo.held (c : Thread nD τ) (Pipeline.ucRefs τ sig) (W0 m c) ∗ Rr c)
  post c := iprop(StableHlo.held (c : Thread nD τ) (Pipeline.ucRefs τ sig) (W1 m c) ∗ Rr c)
  X c := iprop(∃ r, prngReg c r)
  Y c := iprop(∃ r, prngReg c r)
  Z c := (((c : Thread nD τ).loc main_v1) ↦{fullShare} W0 m c main_v1)
  hentry c := by
    rw [Pipeline.ownSems0_none, held_four]
    unfold four
    rw [show (pdats m 0 c) = Hand0.dat (Vt0 m) c from rfl, arrays0, share_eq ((c : Thread nD τ).loc main_arg0)]
    iintro ⟨⟨⟨⟨⟨Ha1, Ha2⟩, Hb, Hc⟩, Hd⟩, Hp, HO⟩, -, -⟩
    imodintro
    isplitl [Ha1 Ha2 Hb Hc]
    · isplitl [Ha1]; · iexact Ha1
      isplitl [Ha2]; · iexact Ha2
      isplitl [Hb]; · iexact Hb
      iexact Hc
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hd
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [held_four]
    unfold four
    rw [show (pdats m 0 c) = Hand0.dat (Vt0 m) c from rfl, arrays0]
    rw [(Hand0.dat (Vt0 m) c).arrAt_in 0 rfl, (Hand0.dat (Vt0 m) c).arrAt_in 1 rfl, W1_arg0, W1_v0_0, W1_v0_1, W1_v1, share_eq ((c : Thread nD τ).loc main_arg0)]
    iintro ⟨⟨Ha1, Ha2, Hb, Hc⟩, HO, HY, Hd⟩
    imodintro
    isplitl [Ha1 Ha2 Hb Hc Hd]
    · isplitl [Ha1 Ha2 Hb Hc]
      · isplitl [Ha1 Ha2]
        · isplitl [Ha1]; · iexact Ha1
          iexact Ha2
        isplitl [Hb]; · iexact Hb
        iexact Hc
      iexact Hd
    isplitl [HY]; · iexact HY
    unfold Pipeline.Dat.owesAt Pipeline.owesWithin
    icases HO with ⟨%W, -, HO⟩; iexists W; iexact HO

/-- The last thread state without the core's dues: every unscoped buffer at the final contents, the generator
    register at some state. -/
abbrev Tₙ (c : Dev nD) : sProp 𝕄 := iprop(StableHlo.held (c : Thread nD τ) (Pipeline.ucRefs τ sig) (W2 m c) ∗ ∃ r, prngReg c r)

set_option backward.isDefEq.respectTransparency.types false in
/-- The second region: entered from what the first left, left with the result written back. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Hand.body_obligation (Vt1 m) c).loose
  hwaits := Pipeline.hwaits_of_owed_zero _ _ _ _ L lv 1 fun _ _ => rfl
  pre c := iprop(StableHlo.held (c : Thread nD τ) (Pipeline.ucRefs τ sig) (W1 m c) ∗ Rr c)
  post c := iprop((StableHlo.held (c : Thread nD τ) (Pipeline.ucRefs τ sig) (W2 m c) ∗ ∃ r, prngReg c r) ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none, held_four]
    unfold four
    rw [show (pdats m 1 c) = Hand.dat (Vt1 m) c from rfl, arrays1, share_eq ((c : Thread nD τ).loc main_arg0)]
    iintro ⟨⟨⟨⟨⟨Ha1, Ha2⟩, Hb, Hc⟩, Hd⟩, Hp, HO⟩, -, -⟩
    imodintro
    isplitl [Ha1 Ha2 Hb Hc Hd]
    · isplitl [Ha1]; · iexact Ha1
      isplitl [Ha2]; · iexact Ha2
      isplitl [Hb]; · iexact Hb
      isplitl [Hc]; · iexact Hc
      iexact Hd
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [held_four]
    unfold four
    rw [show (pdats m 1 c) = Hand.dat (Vt1 m) c from rfl, arrays1]
    rw [(Hand.dat (Vt1 m) c).arrAt_in 0 rfl, (Hand.dat (Vt1 m) c).arrAt_in 1 rfl, (Hand.dat (Vt1 m) c).arrAt_in 2 rfl,
      (Hand.dat (Vt1 m) c).arrAt_in 3 rfl, W2_arg0, W2_v0_0, W2_v0_1, W2_v1, ← W1_arg0 m c, share_eq ((c : Thread nD τ).loc main_arg0)]
    iintro ⟨⟨Ha1, Ha2, Hb, Hc, Hd⟩, HO, HY, -⟩
    imodintro
    isplitl [Ha1 Ha2 Hb Hc Hd HY]
    · isplitl [Ha1 Ha2 Hb Hc Hd]
      · isplitl [Ha1 Ha2 Hb Hc]
        · isplitl [Ha1 Ha2]
          · isplitl [Ha1]; · iexact Ha1
            iexact Ha2
          isplitl [Hb]; · iexact Hb
          iexact Hc
        iexact Hd
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting;
    the argument ends as launched and the result holds what the second region's write-backs leave. -/
theorem run_all : θ_run defs (onTc (τ := τ) (main (F := F))) ⟨m, fun _ => 0, ρ⟩ (fun r => ∀ c : Dev nD,
      r.2.mem ((c.tc : Thread nD τ).loc main_v1) = (Hand.dat (Vt1 m) c).arrAt 4 cfg1.N
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_v1 m c), (h c _ (mem_uc main_arg0 (by decide))).trans (W2_arg0 m c)⟩)

end Cert.KernelIdeal.Run

end
-- ==== Proof.KBody0.lean ====
/-
  The first kernel's body on any staging buffers: it reads a whole matrix and one block of 256 of its rows, and folds
  the least and the greatest of their pairwise distances into two one-word accumulators, which the very first grid
  point starts at +∞ and −∞.
-/
import proofs.«160997_j46858093199670_1_alg».proof.Proof.Gen.Kernel.Launch
import proofs.«160997_j46858093199670_1_alg».proof.Proof.Gen.Kernel.Skeleton
import proofs.«160997_j46858093199670_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem z3 : (![0, 0, 0] : Fin 3 → Nat) = fun _ => 0 := by funext a; fin_cases a <;> rfl
theorem z2 : (![0, 0] : Fin 2 → Nat) = fun _ => 0 := by funext a; fin_cases a <;> rfl

/-- The body's branch: taken at the grid point (0, 0) only. -/
abbrev isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

theorem isFirst_iff : ∀ t : Fin cfg0.N, isFirst (grid0.coords t) ↔ t.val = 0 :=
  (by decide +kernel : ∀ t : Fin grid0.N, isFirst (grid0.coords t) ↔ t.val = 0)

/-- The minimum accumulator after the body, from the matrix, the row block and the accumulator before. -/
def minOut (x0 : Vec F S1x4096x64 .f32) (x1 : Vec F S1x256x64 .f32) (a : Vec F S1x1 .f32) : Vec F S1x1 .f32 :=
  k0_pay6 x0 x1 a
/-- The maximum accumulator after the body. -/
def maxOut (x0 : Vec F S1x4096x64 .f32) (x1 : Vec F S1x256x64 .f32) (a : Vec F S1x1 .f32) : Vec F S1x1 .f32 :=
  k0_pay1 (k0_pay5 x0 x1) a

set_option maxHeartbeats 1000000 in
/-- At the first grid point: the accumulators are reset, then folded. -/
theorem sound_reduce_first (c : Dev nD) (E : Set ℕ) (i : grid0.Coords) (hc : isFirst i)
    (arg2 : Memref sig .tc .vmem S1x4096x64 .f32) (harg2 : arg2.IsWhole) (arg3 : Memref sig .tc .vmem S1x256x64 .f32) (harg3 : arg3.IsWhole)
    (arg4 : Memref sig .tc .vmem S1x1 .f32) (harg4 : arg4.IsWhole) (arg5 : Memref sig .tc .vmem S1x1 .f32) (harg5 : arg5.IsWhole)
    (x0 : Vec F S1x4096x64 .f32) (x1 : Vec F S1x256x64 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (minOut x0 x1 (k0_pay2 (F := F)))
            ∗ owns (c : Thread nD τ) arg5 fullShare (maxOut x0 x1 (k0_pay3 (F := F)))) -∗ K ⟨⟩))
      ⊢ wp frame (wpE (defs₀ (F := F)) Variants.none c none) E (cc0__reduce_kernel i arg2 harg2 arg3 harg3 arg4 harg4 arg5 harg5) K := by
  simp only [cc0__reduce_kernel_eq_skeleton]; unfold cc0__reduce_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (fun y => ⟨_, List.mem_cons_self, View.mem_set_unit_zero (S := S1x1) z2 inb_S1x1_S1x1_0_0 y⟩),
      View.canon_cons_unit_zero (S := S1x1) z2]
    unfold minOut
    sl_unfold_run_names
    simp only [View.readAt_eq_ld]
    have e0 : ∀ X : S1x4096x64.Idx → Elt F .f32,
        View.ld X (Rect.unit (s := S1x4096x64) ![0, 0, 0] S1x4096x64.size inb_S1x4096x64_S1x4096x64_0_0_0) = X :=
      fun X => View.ld_unit_zero (S := S1x4096x64) z3 _ X
    have e1 : ∀ X : S1x256x64.Idx → Elt F .f32,
        View.ld X (Rect.unit (s := S1x256x64) ![0, 0, 0] S1x256x64.size inb_S1x256x64_S1x256x64_0_0_0) = X :=
      fun X => View.ld_unit_zero (S := S1x256x64) z3 _ X
    have e2 : ∀ X : S1x1.Idx → Elt F .f32,
        View.ld X (Rect.unit (s := S1x1) ![0, 0] S1x1.size inb_S1x1_S1x1_0_0) = X :=
      fun X => View.ld_unit_zero (S := S1x1) z2 _ X
    exact congr (congr (congrArg k0_pay6 (e0 _)) (e1 _)) (View.readCov_unit_zero (S := S1x1) arg4.view z2 _ _)

  iexists _; isplitr
  swap; · iexact H5
  ipureintro
  rw [View.read_writes_eq_canon _ _ _ (fun y => ⟨_, List.mem_cons_self, View.mem_set_unit_zero (S := S1x1) z2 inb_S1x1_S1x1_0_0 y⟩),
    View.canon_cons_unit_zero (S := S1x1) z2]
  unfold maxOut
  sl_unfold_run_names
  simp only [View.readAt_eq_ld]
  · have e0 : ∀ X : S1x4096x64.Idx → Elt F .f32,
        View.ld X (Rect.unit (s := S1x4096x64) ![0, 0, 0] S1x4096x64.size inb_S1x4096x64_S1x4096x64_0_0_0) = X :=
      fun X => View.ld_unit_zero (S := S1x4096x64) z3 _ X
    have e1 : ∀ X : S1x256x64.Idx → Elt F .f32,
        View.ld X (Rect.unit (s := S1x256x64) ![0, 0, 0] S1x256x64.size inb_S1x256x64_S1x256x64_0_0_0) = X :=
      fun X => View.ld_unit_zero (S := S1x256x64) z3 _ X
    have e2 : ∀ X : S1x1.Idx → Elt F .f32,
        View.ld X (Rect.unit (s := S1x1) ![0, 0] S1x1.size inb_S1x1_S1x1_0_0) = X :=
      fun X => View.ld_unit_zero (S := S1x1) z2 _ X
    exact congr (congrArg k0_pay1 (congr (congrArg k0_pay5 (e0 _)) (e1 _))) (View.readCov_unit_zero (S := S1x1) arg5.view z2 _ _)

set_option maxHeartbeats 1000000 in
/-- At every later grid point: the accumulators are folded. -/
theorem sound_reduce_later (c : Dev nD) (E : Set ℕ) (i : grid0.Coords) (hc : ¬ isFirst i)
    (arg2 : Memref sig .tc .vmem S1x4096x64 .f32) (harg2 : arg2.IsWhole) (arg3 : Memref sig .tc .vmem S1x256x64 .f32) (harg3 : arg3.IsWhole)
    (arg4 : Memref sig .tc .vmem S1x1 .f32) (harg4 : arg4.IsWhole) (arg5 : Memref sig .tc .vmem S1x1 .f32) (harg5 : arg5.IsWhole)
    (x0 : Vec F S1x4096x64 .f32) (x1 : Vec F S1x256x64 .f32) (a4 a5 : Vec F S1x1 .f32) (K : PUnit → sProp 𝕄) :
    iprop(owns (c : Thread nD τ) arg2 fullShare x0 ∗ owns (c : Thread nD τ) arg3 fullShare x1
        ∗ owns (c : Thread nD τ) arg4 fullShare a4 ∗ owns (c : Thread nD τ) arg5 fullShare a5
        ∗ (iprop(owns (c : Thread nD τ) arg2 fullShare x0 ∗ owns (c : Thread nD τ) arg3 fullShare x1
            ∗ owns (c : Thread nD τ) arg4 fullShare (minOut x0 x1 a4)
            ∗ owns (c : Thread nD τ) arg5 fullShare (maxOut x0 x1 a5)) -∗ K ⟨⟩))
      ⊢ wp frame (wpE (defs₀ (F := F)) Variants.none c none) E (cc0__reduce_kernel i arg2 harg2 arg3 harg3 arg4 harg4 arg5 harg5) K := by
  simp only [cc0__reduce_kernel_eq_skeleton]; unfold cc0__reduce_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    rw [View.read_writes_eq_canon _ _ _ (fun y => ⟨_, List.mem_cons_self, View.mem_set_unit_zero (S := S1x1) z2 inb_S1x1_S1x1_0_0 y⟩),
      View.canon_cons_unit_zero (S := S1x1) z2]
    unfold minOut
    sl_unfold_run_names
    simp only [View.readAt_eq_ld]
    have e0 : ∀ X : S1x4096x64.Idx → Elt F .f32,
        View.ld X (Rect.unit (s := S1x4096x64) ![0, 0, 0] S1x4096x64.size inb_S1x4096x64_S1x4096x64_0_0_0) = X :=
      fun X => View.ld_unit_zero (S := S1x4096x64) z3 _ X
    have e1 : ∀ X : S1x256x64.Idx → Elt F .f32,
        View.ld X (Rect.unit (s := S1x256x64) ![0, 0, 0] S1x256x64.size inb_S1x256x64_S1x256x64_0_0_0) = X :=
      fun X => View.ld_unit_zero (S := S1x256x64) z3 _ X
    have e2 : ∀ X : S1x1.Idx → Elt F .f32,
        View.ld X (Rect.unit (s := S1x1) ![0, 0] S1x1.size inb_S1x1_S1x1_0_0) = X :=
      fun X => View.ld_unit_zero (S := S1x1) z2 _ X
    exact congr (congr (congrArg k0_pay6 (e0 _)) (e1 _)) (e2 _)

  iexists _; isplitr
  swap; · iexact H5
  ipureintro
  rw [View.read_writes_eq_canon _ _ _ (fun y => ⟨_, List.mem_cons_self, View.mem_set_unit_zero (S := S1x1) z2 inb_S1x1_S1x1_0_0 y⟩),
    View.canon_cons_unit_zero (S := S1x1) z2]
  unfold maxOut
  sl_unfold_run_names
  simp only [View.readAt_eq_ld]
  · have e0 : ∀ X : S1x4096x64.Idx → Elt F .f32,
        View.ld X (Rect.unit (s := S1x4096x64) ![0, 0, 0] S1x4096x64.size inb_S1x4096x64_S1x4096x64_0_0_0) = X :=
      fun X => View.ld_unit_zero (S := S1x4096x64) z3 _ X
    have e1 : ∀ X : S1x256x64.Idx → Elt F .f32,
        View.ld X (Rect.unit (s := S1x256x64) ![0, 0, 0] S1x256x64.size inb_S1x256x64_S1x256x64_0_0_0) = X :=
      fun X => View.ld_unit_zero (S := S1x256x64) z3 _ X
    have e2 : ∀ X : S1x1.Idx → Elt F .f32,
        View.ld X (Rect.unit (s := S1x1) ![0, 0] S1x1.size inb_S1x1_S1x1_0_0) = X :=
      fun X => View.ld_unit_zero (S := S1x1) z2 _ X
    exact congr (congrArg k0_pay1 (congr (congrArg k0_pay5 (e0 _)) (e1 _))) (e2 _)

end Cert.Kernel.Hand0

end
-- ==== Proof.KDat0.lean ====
/-
  The first region's proof data: what each of its four windows' staging buffers holds after the body at each of the
  64 grid points — the two inputs their blocks, the two accumulators the least and the greatest distance met so far —
  and the body's obligation at every point.
-/
import proofs.«160997_j46858093199670_1_alg».proof.Proof.Gen.Kernel.Launch
import proofs.«160997_j46858093199670_1_alg».proof.Proof.Gen.Kernel.Skeleton
import proofs.«160997_j46858093199670_1_alg».proof.Proof.Gen.Kernel.Points
import proofs.«160997_j46858093199670_1_alg».proof.Proof.KBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The least distance met up to and including point `n`: from +∞, folded point by point. -/
def accMin (c : Dev nD) : (n : Nat) → n < cfg0.N → Vec F S1x1 .f32
  | 0, h => minOut (iblk V c 0 ⟨0, h⟩) (iblk V c 1 ⟨0, h⟩) (k0_pay2 (F := F))
  | n + 1, h => minOut (iblk V c 0 ⟨n + 1, h⟩) (iblk V c 1 ⟨n + 1, h⟩) (accMin c n (Nat.lt_of_succ_lt h))

/-- The greatest distance met up to and including point `n`: from −∞. -/
def accMax (c : Dev nD) : (n : Nat) → n < cfg0.N → Vec F S1x1 .f32
  | 0, h => maxOut (iblk V c 0 ⟨0, h⟩) (iblk V c 1 ⟨0, h⟩) (k0_pay3 (F := F))
  | n + 1, h => maxOut (iblk V c 0 ⟨n + 1, h⟩) (iblk V c 1 ⟨n + 1, h⟩) (accMax c n (Nat.lt_of_succ_lt h))

/-- The proof data: the two input windows share the argument array, each holding half of it. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accMin V c t.val t.isLt
    | ⟨3, _⟩ => accMax V c t.val t.isLt
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = accMin V c t.val t.isLt := by dsimp only [dat]
theorem after_3 (c : Dev nD) (t : Fin cfg0.N) : (dat V c).after 3 t = accMax V c t.val t.isLt := by dsimp only [dat]

/-- An input's buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem lt64 (t : Fin cfg0.N) : t.val < 64 := lt_of_lt_of_eq t.isLt N_0

/-- An accumulator's buffer is written back at the last point only, so after the first point it holds what the
    point before left. -/
theorem before_2 (c : Dev nD) (t : Fin cfg0.N) (ht : t.val ≠ 0) (d) :
    (dat V c).before 2 t d = (dat V c).after 2 ⟨t.val - 1, Nat.lt_of_le_of_lt (Nat.sub_le _ _) t.isLt⟩ :=
  (dat V c).before_out_kept 2 rfl t ht
    (Bool.eq_false_iff.mpr fun h => by have h1 := (flush0_2 _).mp h; have h2 := lt64 t; change (t.val - 1) % 64 = 63 at h1; omega)
    (fun _ => rfl) (fun _ _ => rfl) d
theorem before_3 (c : Dev nD) (t : Fin cfg0.N) (ht : t.val ≠ 0) (d) :
    (dat V c).before 3 t d = (dat V c).after 3 ⟨t.val - 1, Nat.lt_of_le_of_lt (Nat.sub_le _ _) t.isLt⟩ :=
  (dat V c).before_out_kept 3 rfl t ht
    (Bool.eq_false_iff.mpr fun h => by have h1 := (flush0_3 _).mp h; have h2 := lt64 t; change (t.val - 1) % 64 = 63 at h1; omega)
    (fun _ => rfl) (fun _ _ => rfl) d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3]
  by_cases ht : t.val = 0
  · obtain ⟨n, hn⟩ := t
    obtain rfl : n = 0 := ht
    iintro ⟨HΦ, Ho, ⟨%d0, H0⟩, ⟨%d1, H1⟩, H2, H3⟩
    iapply (sound_reduce_first c Set.univ _ ((isFirst_iff ⟨0, hn⟩).mpr rfl) _ _ _ _ _ _ _ _ (iblk V c 0 ⟨0, hn⟩) (iblk V c 1 ⟨0, hn⟩) _)
    isplitl [H0]; · iexact H0
    isplitl [H1]; · iexact H1
    isplitl [H2]
    · icases H2 with ⟨%d2, H2⟩; iexists _; iexact H2
    isplitl [H3]
    · icases H3 with ⟨%d3, H3⟩; iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · obtain ⟨n, hn⟩ := t
    obtain ⟨k, rfl⟩ : ∃ k, n = k + 1 := ⟨n - 1, by simp only at ht; omega⟩
    simp only [before_2 V c ⟨k + 1, hn⟩ (by simp), before_3 V c ⟨k + 1, hn⟩ (by simp), after_2, after_3]
    iintro ⟨HΦ, Ho, ⟨%d0, H0⟩, ⟨%d1, H1⟩, ⟨%d2, H2⟩, ⟨%d3, H3⟩⟩
    iapply (sound_reduce_later c Set.univ _ (fun h => ht ((isFirst_iff ⟨k + 1, hn⟩).mp h)) _ _ _ _ _ _ _ _
      (iblk V c 0 ⟨k + 1, hn⟩) (iblk V c 1 ⟨k + 1, hn⟩) (accMin V c k (Nat.lt_of_succ_lt hn)) (accMax V c k (Nat.lt_of_succ_lt hn)) _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem body_obligation (c : Dev nD) : BodyObligation (dat (F := F) V c) (defs₀ (F := F)) Variants.none () Set.univ := fun t => by
  rw [bigSep_W0, bigSep_W0]
  exact sound_body V c t

end Cert.Kernel.Hand0

end
-- ==== Proof.KBody1.lean ====
/-
  The second kernel's body on any staging buffers: it reads its two row blocks and the two scalars the first
  kernel left, and stores one tile of the normalized distance matrix.
-/
import proofs.«160997_j46858093199670_1_alg».proof.Proof.Gen.Kernel.Launch
import proofs.«160997_j46858093199670_1_alg».proof.Proof.Gen.Kernel.Skeleton
import proofs.«160997_j46858093199670_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile the body stores, from the row block, the column block, the minimum and the maximum it was handed. -/
def tileOut (i : grid1.Coords) (x0 x1 : Vec F S1x512x64 .f32) (x2 x3 : Vec F S1x1 .f32) : Vec F S1x512x512 .f32 :=
  k1_pay1 (k1_pay2 x0 x1 x2 x3) (k1_pay3 i) (Scalar.ofBits .f32 0x3F800000#32)

theorem z3 : (![0, 0, 0] : Fin 3 → Nat) = fun _ => 0 := by funext a; fin_cases a <;> rfl
theorem z2 : (![0, 0] : Fin 2 → Nat) = fun _ => 0 := by funext a; fin_cases a <;> rfl

set_option maxHeartbeats 1000000 in
theorem sound_norm (c : Dev nD) (E : Set ℕ) (i : grid1.Coords)
    (arg3 : Memref sig .tc .vmem S1x512x64 .f32) (harg3 : arg3.IsWhole) (arg4 : Memref sig .tc .vmem S1x512x64 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x512x512 .f32) (harg7 : arg7.IsWhole)
    (x0 x1 : Vec F S1x512x64 .f32) (x2 x3 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (tileOut i x0 x1 x2 x3)) -∗ K ⟨⟩))
      ⊢ wp frame (wpE (defs₀ (F := F)) Variants.none c none) E (cc1__norm_kernel i arg3 harg3 arg4 harg4 arg5 harg5 arg6 harg6 arg7 harg7) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero (S := S1x512x512) z3 inb_S1x512x512_S1x512x512_0_0_0 y⟩),
    View.canon_unit_zero (S := S1x512x512) z3]
  unfold tileOut
  sl_unfold_run_names
  simp only [View.readAt_eq_ld]
  have e0 : ∀ X : S1x512x64.Idx → Elt F .f32,
      View.ld X (Rect.unit (s := S1x512x64) ![0, 0, 0] S1x512x64.size inb_S1x512x64_S1x512x64_0_0_0) = X :=
    fun X => View.ld_unit_zero (S := S1x512x64) z3 _ X
  have e1 : ∀ X : S1x1.Idx → Elt F .f32,
      View.ld X (Rect.unit (s := S1x1) ![0, 0] S1x1.size inb_S1x1_S1x1_0_0) = X :=
    fun X => View.ld_unit_zero (S := S1x1) z2 _ X
  refine congrArg (fun z => k1_pay1 z (k1_pay3 i) _) ?_
  exact congr (congr (congr (congrArg k1_pay2 (e0 _)) (e0 _)) (e1 _)) (e1 _)

end Cert.Kernel.Hand

end
-- ==== Proof.KDat1.lean ====
/-
  The second region's proof data: what each of its five windows' staging buffers holds after the body at each of
  the 256 grid points — the four inputs their blocks (two row blocks of the argument, and the two one-word arrays
  the first region wrote), the output the tile of normalized distances — and the body's obligation at every point.
-/
import proofs.«160997_j46858093199670_1_alg».proof.Proof.Gen.Kernel.Launch
import proofs.«160997_j46858093199670_1_alg».proof.Proof.Gen.Kernel.Skeleton
import proofs.«160997_j46858093199670_1_alg».proof.Proof.Gen.Kernel.Points
import proofs.«160997_j46858093199670_1_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the two row windows share the argument array, each holding half of it. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => tileOut (grid1.coords t) (iblk V c 0 t) (iblk V c 1 t) (iblk V c 2 t) (iblk V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = tileOut (grid1.coords t) (iblk V c 0 t) (iblk V c 1 t) (iblk V c 2 t) (iblk V c 3 t) := by dsimp only [dat]

/-- An input's buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_norm c Set.univ (grid1.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dat (F := F) V c) (defs₀ (F := F)) Variants.none () Set.univ := fun t => by
  rw [bigSep_W1, bigSep_W1]
  exact sound_body V c t

end Cert.Kernel.Hand

end
-- ==== Proof.KRun.lean ====
/-
  The whole run of @main: its two kernel regions in order, from the launch to the return. Between the regions every
  unscoped buffer is held whole — the argument as launched, the two one-word arrays at what the first region's
  write-backs leave, the result at what the second region's leave. The two input windows of each region share the
  argument array: each is lent half of it at the region's entry, and the halves are joined again at its exit.
-/
import proofs.«160997_j46858093199670_1_alg».proof.Proof.Gen.Kernel.Launch
import proofs.«160997_j46858093199670_1_alg».proof.Proof.Gen.Kernel.Skeleton
import proofs.«160997_j46858093199670_1_alg».proof.Proof.Gen.Kernel.Points
import proofs.«160997_j46858093199670_1_alg».proof.Proof.KDat0
import proofs.«160997_j46858093199670_1_alg».proof.Proof.KDat1
import proofs.«160997_j46858093199670_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev W0 : Dev nD → Valuation τ sig (Elt F) := fun c b => m (c, b)
abbrev Vt0 : (c : Dev nD) → (b : Ref sig .tc) → Buf (Elt F) ((c : Thread nD τ).loc b) := fun c b => W0 m c b
/-- After the first region: the two accumulators written back. -/
def W1 (c : Dev nD) : Valuation τ sig (Elt F) :=
  Function.update (Function.update (W0 m c) main_v0_0 ((Hand0.dat (Vt0 m) c).arrAt 2 cfg0.N)) main_v0_1 ((Hand0.dat (Vt0 m) c).arrAt 3 cfg0.N)
abbrev Vt1 : (c : Dev nD) → (b : Ref sig .tc) → Buf (Elt F) ((c : Thread nD τ).loc b) := fun c b => W1 m c b
/-- After the second region: the result written back. -/
def W2 (c : Dev nD) : Valuation τ sig (Elt F) :=
  Function.update (W1 m c) main_v1 ((Hand.dat (Vt1 m) c).arrAt 4 cfg1.N)

theorem ne01 : (Proc.devRef .tc main_v0_0 : DevRef τ sig) ≠ Proc.devRef .tc main_v0_1 := StableHlo.devRef_ne_of_ne (by decide)
theorem W1_arg0 (c : Dev nD) : W1 m c main_arg0 = W0 m c main_arg0 := by
  unfold W1
  rw [Function.update_of_ne (StableHlo.devRef_ne_of_ne (by decide)), Function.update_of_ne (StableHlo.devRef_ne_of_ne (by decide))]
theorem W1_v1 (c : Dev nD) : W1 m c main_v1 = W0 m c main_v1 := by
  unfold W1
  rw [Function.update_of_ne (StableHlo.devRef_ne_of_ne (by decide)), Function.update_of_ne (StableHlo.devRef_ne_of_ne (by decide))]
theorem W1_v0_0 (c : Dev nD) : W1 m c main_v0_0 = (Hand0.dat (Vt0 m) c).arrAt 2 cfg0.N := by
  unfold W1
  rw [Function.update_of_ne (StableHlo.devRef_ne_of_ne (by decide)), Function.update_self]
theorem W1_v0_1 (c : Dev nD) : W1 m c main_v0_1 = (Hand0.dat (Vt0 m) c).arrAt 3 cfg0.N := by
  unfold W1
  rw [Function.update_self]
theorem W2_arg0 (c : Dev nD) : W2 m c main_arg0 = W0 m c main_arg0 := by
  unfold W2
  rw [Function.update_of_ne (StableHlo.devRef_ne_of_ne (by decide))]; exact W1_arg0 m c
theorem W2_v0_0 (c : Dev nD) : W2 m c main_v0_0 = W1 m c main_v0_0 := by
  unfold W2
  rw [Function.update_of_ne (StableHlo.devRef_ne_of_ne (by decide))]
theorem W2_v0_1 (c : Dev nD) : W2 m c main_v0_1 = W1 m c main_v0_1 := by
  unfold W2
  rw [Function.update_of_ne (StableHlo.devRef_ne_of_ne (by decide))]
theorem W2_v1 (c : Dev nD) : W2 m c main_v1 = (Hand.dat (Vt1 m) c).arrAt 4 cfg1.N := by
  unfold W2
  rw [Function.update_self]

/-! ## The unscoped buffers, one by one -/

/-- A core's four unscoped buffers at a valuation, listed. -/
def four (c : Dev nD) (W : Valuation τ sig (Elt F)) : sProp 𝕄 :=
  iprop(((((c : Thread nD τ).loc main_arg0) ↦{fullShare} W main_arg0) ∗ (((c : Thread nD τ).loc main_v0_0) ↦{fullShare} W main_v0_0)
    ∗ (((c : Thread nD τ).loc main_v0_1) ↦{fullShare} W main_v0_1)) ∗ (((c : Thread nD τ).loc main_v1) ↦{fullShare} W main_v1))

theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0_0) ↦{fullShare} V main_v0_0)
        ∗ (((c : Thread nD τ).loc main_v0_1) ↦{fullShare} V main_v0_1)) := by
  unfold Pipeline.arrBufs
  exact bigSep_eq_bigSepL_of_eq [main_arg0, main_v0_0, main_v0_1] (by decide) (by decide) _

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v0_0) ↦{fullShare} V main_v0_0)
        ∗ (((c : Thread nD τ).loc main_v0_1) ↦{fullShare} V main_v0_1) ∗ (((c : Thread nD τ).loc main_v1) ↦{fullShare} V main_v1)) := by
  unfold Pipeline.arrBufs
  exact bigSep_eq_bigSepL_of_eq [main_arg0, main_v0_0, main_v0_1, main_v1] (by decide) (by decide) _

/-- The set of unscoped buffers held at a valuation is the four buffers. -/
theorem held_four (c : Dev nD) (W : Valuation τ sig (Elt F)) :
    (StableHlo.held (c : Thread nD τ) (Pipeline.ucRefs τ sig) W : sProp 𝕄) = four c W := by
  rw [← Pipeline.unscopedBufs_held (Ix := Unit) (Name := ℕ) (U := UR sig nD τ) (Lvl := ℕ) c W,
    Pipeline.unscopedBufs_split₀ (p := (0 : Fin 2)) cfgs winFacts₀0.arr_unscoped c (fun b => W b)]
  show iprop((Pipeline.arrBufs spec0 c fun b => W (Proc.tc.devRef b)) ∗ Pipeline.unscopedRest spec0 c fun b => W (Proc.tc.devRef b)) = _
  rw [arrBufs0_eq, unscopedRest0_eq]
  rfl

/-! ## The proof data family and what rides beside the buffers -/

def pdats : (p : Fin 2) → (c : Dev nD) → Dat τ (Elt F) Unit ℕ (UR sig nD τ) ℕ (Pipeline.pin (pcfgs (F := F)) adm p) c
  | ⟨0, _⟩ => fun c => Hand0.dat (Vt0 m) c
  | ⟨1, _⟩ => fun c => Hand.dat (Vt1 m) c
abbrev 𝒱₀ : Variants := Variants.none
abbrev L : GSem nD τ sig → Finset Unit := fun _ => ∅
abbrev lv : GSem nD τ sig → Unit → ℕ := fun _ _ => 0
/-- The generator register at some state, and the core owing nothing. -/
abbrev Rr (c : Dev nD) : sProp 𝕄 := iprop((∃ r, prngReg c r) ∗ ∃ W, owes (c : Thread nD τ) (0 : CellTallies nD τ sig Unit) W)

/-- The first region's arrays, window by window: the argument at two half shares, the accumulators outright. -/
theorem arrays0 (c : Dev nD) (A : (w : Fin cfg0.W) → Buf (Elt F) ((cfg0.win w).arr.view.loc (c : Thread nD τ))) :
    ((Hand0.dat (Vt0 m) c).arrays A : sProp 𝕄)
      = iprop((((c : Thread nD τ).loc main_arg0) ↦{fullShare.left} A 0) ∗ (((c : Thread nD τ).loc main_arg0) ↦{fullShare.right} A 1)
        ∗ (((c : Thread nD τ).loc main_v0_0) ↦{fullShare} A 2) ∗ (((c : Thread nD τ).loc main_v0_1) ↦{fullShare} A 3)) := by
  have h : ((Hand0.dat (Vt0 m) c).arrays A : sProp 𝕄) = bigSep Finset.univ fun w : Fin cfg0.W =>
      (((c : Thread nD τ).loc (Pipeline.arrRef spec0 w)) ↦{(Hand0.dat (Vt0 m) c).share w} A w : sProp 𝕄) := by
    unfold Dat.arrays
    exact bigSep_congr fun w _ => by rw [(arr_whole0 w).set_eq_univ]
  rw [h, bigSep_W0]
  rfl

/-- The second region's arrays, window by window. -/
theorem arrays1 (c : Dev nD) (A : (w : Fin cfg1.W) → Buf (Elt F) ((cfg1.win w).arr.view.loc (c : Thread nD τ))) :
    ((Hand.dat (Vt1 m) c).arrays A : sProp 𝕄)
      = iprop((((c : Thread nD τ).loc main_arg0) ↦{fullShare.left} A 0) ∗ (((c : Thread nD τ).loc main_arg0) ↦{fullShare.right} A 1)
        ∗ (((c : Thread nD τ).loc main_v0_0) ↦{fullShare} A 2) ∗ (((c : Thread nD τ).loc main_v0_1) ↦{fullShare} A 3)
        ∗ (((c : Thread nD τ).loc main_v1) ↦{fullShare} A 4)) := by
  have h : ((Hand.dat (Vt1 m) c).arrays A : sProp 𝕄) = bigSep Finset.univ fun w : Fin cfg1.W =>
      (((c : Thread nD τ).loc (Pipeline.arrRef spec1 w)) ↦{(Hand.dat (Vt1 m) c).share w} A w : sProp 𝕄) := by
    unfold Dat.arrays
    exact bigSep_congr fun w _ => by rw [(arr_whole1 w).set_eq_univ]
  rw [h, bigSep_W1]
  rfl

/-- A buffer held whole is held at its two halves. -/
theorem share_eq (ℓ : Loc nD τ sig) (f : Buf (Elt F) ℓ) :
    (ℓ ↦{fullShare} f : sProp 𝕄) = iprop((ℓ ↦{fullShare.left} f) ∗ (ℓ ↦{fullShare.right} f)) :=
  BI.Entails.antisymm (pointsTo_share (PosShare.mem_left_op_right fullShare)).1 (pointsTo_share (PosShare.mem_left_op_right fullShare)).2

/-! ## The regions as segments -/

set_option backward.isDefEq.respectTransparency.types false in
/-- The first region: entered from the buffers as launched, left with the two accumulators written back. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Hand0.body_obligation (Vt0 m) c).loose
  hwaits := Pipeline.hwaits_of_owed_zero _ _ _ _ L lv 0 fun _ _ => rfl
  pre c := iprop(StableHlo.held (c : Thread nD τ) (Pipeline.ucRefs τ sig) (W0 m c) ∗ Rr c)
  post c := iprop(StableHlo.held (c : Thread nD τ) (Pipeline.ucRefs τ sig) (W1 m c) ∗ Rr c)
  X c := iprop(∃ r, prngReg c r)
  Y c := iprop(∃ r, prngReg c r)
  Z c := (((c : Thread nD τ).loc main_v1) ↦{fullShare} W0 m c main_v1)
  hentry c := by
    rw [Pipeline.ownSems0_none, held_four]
    unfold four
    rw [show (pdats m 0 c) = Hand0.dat (Vt0 m) c from rfl, arrays0, share_eq ((c : Thread nD τ).loc main_arg0)]
    iintro ⟨⟨⟨⟨⟨Ha1, Ha2⟩, Hb, Hc⟩, Hd⟩, Hp, HO⟩, -, -⟩
    imodintro
    isplitl [Ha1 Ha2 Hb Hc]
    · isplitl [Ha1]; · iexact Ha1
      isplitl [Ha2]; · iexact Ha2
      isplitl [Hb]; · iexact Hb
      iexact Hc
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hd
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [held_four]
    unfold four
    rw [show (pdats m 0 c) = Hand0.dat (Vt0 m) c from rfl, arrays0]
    rw [(Hand0.dat (Vt0 m) c).arrAt_in 0 rfl, (Hand0.dat (Vt0 m) c).arrAt_in 1 rfl, W1_arg0, W1_v0_0, W1_v0_1, W1_v1, share_eq ((c : Thread nD τ).loc main_arg0)]
    iintro ⟨⟨Ha1, Ha2, Hb, Hc⟩, HO, HY, Hd⟩
    imodintro
    isplitl [Ha1 Ha2 Hb Hc Hd]
    · isplitl [Ha1 Ha2 Hb Hc]
      · isplitl [Ha1 Ha2]
        · isplitl [Ha1]; · iexact Ha1
          iexact Ha2
        isplitl [Hb]; · iexact Hb
        iexact Hc
      iexact Hd
    isplitl [HY]; · iexact HY
    unfold Pipeline.Dat.owesAt Pipeline.owesWithin
    icases HO with ⟨%W, -, HO⟩; iexists W; iexact HO

/-- The last thread state without the core's dues: every unscoped buffer at the final contents, the generator
    register at some state. -/
abbrev Tₙ (c : Dev nD) : sProp 𝕄 := iprop(StableHlo.held (c : Thread nD τ) (Pipeline.ucRefs τ sig) (W2 m c) ∗ ∃ r, prngReg c r)

set_option backward.isDefEq.respectTransparency.types false in
/-- The second region: entered from what the first left, left with the result written back. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Hand.body_obligation (Vt1 m) c).loose
  hwaits := Pipeline.hwaits_of_owed_zero _ _ _ _ L lv 1 fun _ _ => rfl
  pre c := iprop(StableHlo.held (c : Thread nD τ) (Pipeline.ucRefs τ sig) (W1 m c) ∗ Rr c)
  post c := iprop((StableHlo.held (c : Thread nD τ) (Pipeline.ucRefs τ sig) (W2 m c) ∗ ∃ r, prngReg c r) ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none, held_four]
    unfold four
    rw [show (pdats m 1 c) = Hand.dat (Vt1 m) c from rfl, arrays1, share_eq ((c : Thread nD τ).loc main_arg0)]
    iintro ⟨⟨⟨⟨⟨Ha1, Ha2⟩, Hb, Hc⟩, Hd⟩, Hp, HO⟩, -, -⟩
    imodintro
    isplitl [Ha1 Ha2 Hb Hc Hd]
    · isplitl [Ha1]; · iexact Ha1
      isplitl [Ha2]; · iexact Ha2
      isplitl [Hb]; · iexact Hb
      isplitl [Hc]; · iexact Hc
      iexact Hd
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [held_four]
    unfold four
    rw [show (pdats m 1 c) = Hand.dat (Vt1 m) c from rfl, arrays1]
    rw [(Hand.dat (Vt1 m) c).arrAt_in 0 rfl, (Hand.dat (Vt1 m) c).arrAt_in 1 rfl, (Hand.dat (Vt1 m) c).arrAt_in 2 rfl,
      (Hand.dat (Vt1 m) c).arrAt_in 3 rfl, W2_arg0, W2_v0_0, W2_v0_1, W2_v1, ← W1_arg0 m c, share_eq ((c : Thread nD τ).loc main_arg0)]
    iintro ⟨⟨Ha1, Ha2, Hb, Hc, Hd⟩, HO, HY, -⟩
    imodintro
    isplitl [Ha1 Ha2 Hb Hc Hd HY]
    · isplitl [Ha1 Ha2 Hb Hc Hd]
      · isplitl [Ha1 Ha2 Hb Hc]
        · isplitl [Ha1 Ha2]
          · isplitl [Ha1]; · iexact Ha1
            iexact Ha2
          isplitl [Hb]; · iexact Hb
          iexact Hc
        iexact Hd
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting;
    the argument ends as launched and the result holds what the second region's write-backs leave. -/
theorem run_all : θ_run defs (onTc (τ := τ) (main (F := F))) ⟨m, fun _ => 0, ρ⟩ (fun r => ∀ c : Dev nD,
      r.2.mem ((c.tc : Thread nD τ).loc main_v1) = (Hand.dat (Vt1 m) c).arrAt 4 cfg1.N
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_v1 m c), (h c _ (mem_uc main_arg0 (by decide))).trans (W2_arg0 m c)⟩)

end Cert.Kernel.Run

end
-- ==== Proof.Spec.lean ====
/-
  Pairwise Euclidean distances of the rows of each of four 4096 × 64 matrices, normalized by their
  global minimum and maximum, the diagonal set to one — the function both programs compute, stated
  once over the extended reals, index by index.

  For a batch b and rows n, m:  d(b,n,m) = √ max(|x_n|² + |x_m|² − 2·⟨x_n, x_m⟩, 0),
  lo = the least and hi = the greatest of all d(b,n,m), and the result is 1 on the diagonal n = m and
  (d(b,n,m) − lo) / (hi − lo) elsewhere.
-/
import Idealize.ShloMosaic.PureOps.Ideal
import Idealize.ShloMosaic.Lib.ValueIdx

noncomputable section

open scoped BigOperators

namespace Cert.Dist

open Idealize.ShloMosaic Idealize.ShloMosaic.ValueIdx

/-- The argument: four matrices of 4096 rows and 64 columns. -/
abbrev SX : Shape := ⟨3, ![4, 4096, 64]⟩
/-- The result: four 4096 × 4096 distance matrices. -/
abbrev SY : Shape := ⟨3, ![4, 4096, 4096]⟩

/-- The squared norm of row `n` of matrix `b`. -/
def sqn (x : SX.Idx → EReal) (b : Fin 4) (n : Fin 4096) : EReal :=
  ∑ k : Fin 64, x (ix3 b n k) * x (ix3 b n k)

/-- The inner product of rows `n` and `m` of matrix `b`. -/
def gram (x : SX.Idx → EReal) (b : Fin 4) (n m : Fin 4096) : EReal :=
  ∑ k : Fin 64, x (ix3 b n k) * x (ix3 b m k)

/-- The distance between rows `n` and `m` of matrix `b`, by the polarization identity, clamped at zero
    before the root. The literals are the programs' own words: `2.0` and `0.0`. -/
def dist (x : SX.Idx → EReal) (b : Fin 4) (n m : Fin 4096) : EReal :=
  Ideal.sqrt (max (sqn x b n + sqn x b m - Ideal.ofBits .f32 0x40000000#32 * gram x b n m) (Ideal.ofBits .f32 0x00000000#32))

/-- The same distance between row `p` of a block `u` of rows and row `q` of a block `v` of rows (blocks as the
    kernels hold them: a leading axis of extent one). -/
def dblk {P Q : Nat} (u : (⟨3, ![1, P, 64]⟩ : Shape).Idx → EReal) (v : (⟨3, ![1, Q, 64]⟩ : Shape).Idx → EReal)
    (p : Fin P) (q : Fin Q) : EReal :=
  Ideal.sqrt (max ((∑ k : Fin 64, u (ix3 0 p k) * u (ix3 0 p k)) + (∑ k : Fin 64, v (ix3 0 q k) * v (ix3 0 q k))
    - Ideal.ofBits .f32 0x40000000#32 * ∑ k : Fin 64, u (ix3 0 p k) * v (ix3 0 q k)) (Ideal.ofBits .f32 0x00000000#32))

/-- The least of all distances (the top element for an empty family: here `+∞`, the programs' starting value). -/
def lo (x : SX.Idx → EReal) : EReal :=
  Finset.univ.inf fun p : Fin 4 × Fin 4096 × Fin 4096 => dist x p.1 p.2.1 p.2.2

/-- The greatest of all distances (from `−∞`). -/
def hi (x : SX.Idx → EReal) : EReal :=
  Finset.univ.sup fun p : Fin 4 × Fin 4096 × Fin 4096 => dist x p.1 p.2.1 p.2.2

/-- The normalized distance matrix with its diagonal set to one (`1.0` the programs' word). -/
def G (x : SX.Idx → EReal) : SY.Idx → EReal := fun j =>
  if (j 1).val = (j 2).val then Ideal.ofBits .f32 0x3F800000#32
  else Ideal.div (dist x (j 0) (j 1) (j 2) - lo x) (hi x - lo x)

theorem G_ix3 (x : SX.Idx → EReal) (b : Fin 4) (n m : Fin 4096) :
    G x (ix3 b n m) = if n.val = m.val then Ideal.ofBits .f32 0x3F800000#32
      else Ideal.div (dist x b n m - lo x) (hi x - lo x) := rfl

end Cert.Dist

end
-- ==== Proof.PayIdx0.lean ====
/-
  The kernels' arithmetic read at an index, over the extended reals.

  Both kernels form a block of pairwise distances in the same way: the squared norms of the rows by a sum along each
  row, the inner products by a matrix product with the transposed block, then |x|² + |y|² − 2⟨x, y⟩ clamped at zero
  and rooted. Here every operation of that chain which is not elementwise — the row sum, the casts that add a unit
  axis, the broadcasts of a column and of a row, the transpose, the matrix product, the minimum and maximum along an
  axis — is read at one index over arbitrary extents, the chain is composed once for an A × B block, and the first
  kernel's stored values are read off: its distance block, and its two accumulators as the minimum and the maximum
  against the least and the greatest distance over all pairs of the block.
-/
import proofs.«160997_j46858093199670_1_alg».proof.Proof.Gen.KernelIdeal.Skeleton
import proofs.«160997_j46858093199670_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdx

open Idealize.ShloMosaic Idealize.ShloMosaic.ValueIdx
open Cert.KernelIdeal Cert.KernelIdeal.Gen

/-! ## Layout and reduction operations read at an index, over any extents -/

/-- A sum over the second axis of a matrix, read at row `p`: the sum of that row. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext c
  match c with
  | ⟨0, _⟩ => rfl
  | ⟨1, _⟩ => rfl

/-- A vector `[a]` cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A matrix product with one shared axis of extent 64 -/

/-- The dimension numbers of a plain matrix product [A,64] × [64,B] → [A,B]. -/
abbrev dotAB (A B : ℕ) (hwf : DotDims.WF (⟨2, ![A, 64]⟩ : Shape) ⟨2, ![64, B]⟩ ⟨2, ![A, B]⟩ [1] [0] [0] [1] [] []) :
    DotDims ⟨2, ![A, 64]⟩ ⟨2, ![64, B]⟩ ⟨2, ![A, B]⟩ where
  lhsContracting := [1]
  rhsContracting := [0]
  lhsNonContracting := [0]
  rhsNonContracting := [1]
  lhsBatch := []
  rhsBatch := []
  wf := hwf

section Dot
variable {A B : ℕ} (hwf : DotDims.WF (⟨2, ![A, 64]⟩ : Shape) ⟨2, ![64, B]⟩ ⟨2, ![A, B]⟩ [1] [0] [0] [1] [] [])

/-- The left operand's row is the result's row. -/
theorem dotAB_lhs0 (j : (⟨2, ![A, B]⟩ : Shape).Idx) (k : (dotAB A B hwf).contr.Idx) :
    ((dotAB A B hwf).lhsIdx j k 0).val = (j 0).val := by
  unfold DotDims.lhsIdx
  rw [dif_neg (show ¬(0 : Fin (⟨2, ![A, 64]⟩ : Shape).rank) ∈ (dotAB A B hwf).lhsBatch from List.not_mem_nil),
    dif_pos (show (0 : Fin (⟨2, ![A, 64]⟩ : Shape).rank) ∈ (dotAB A B hwf).lhsNonContracting from List.mem_singleton.mpr rfl)]
  rfl
/-- The left operand's column is the contraction coordinate. -/
theorem dotAB_lhs1 (j : (⟨2, ![A, B]⟩ : Shape).Idx) (k : (dotAB A B hwf).contr.Idx) :
    ((dotAB A B hwf).lhsIdx j k 1).val = (k ⟨0, Nat.one_pos⟩).val :=
  (dotAB A B hwf).lhsIdx_val_of_single rfl j k
/-- The right operand's row is the contraction coordinate. -/
theorem dotAB_rhs0 (j : (⟨2, ![A, B]⟩ : Shape).Idx) (k : (dotAB A B hwf).contr.Idx) :
    ((dotAB A B hwf).rhsIdx j k 0).val = (k ⟨0, Nat.one_pos⟩).val :=
  (dotAB A B hwf).rhsIdx_val_of_single rfl j k
/-- The right operand's column is the result's column. -/
theorem dotAB_rhs1 (j : (⟨2, ![A, B]⟩ : Shape).Idx) (k : (dotAB A B hwf).contr.Idx) :
    ((dotAB A B hwf).rhsIdx j k 1).val = (j 1).val := by
  unfold DotDims.rhsIdx
  rw [dif_neg (show ¬(1 : Fin (⟨2, ![64, B]⟩ : Shape).rank) ∈ (dotAB A B hwf).rhsBatch from List.not_mem_nil),
    dif_pos (show (1 : Fin (⟨2, ![64, B]⟩ : Shape).rank) ∈ (dotAB A B hwf).rhsNonContracting from List.mem_singleton.mpr rfl)]
  rfl

/-- The product into the zero accumulator, at (p, q): the sum over the shared axis. -/
theorem matmul_AB_apply (prec : Option ContractPrecision)
    (x : FVec Ideal ⟨2, ![A, 64]⟩ .f32) (y : FVec Ideal ⟨2, ![64, B]⟩ .f32) (p : Fin A) (q : Fin B) :
    matmul (F := Ideal) (dotAB A B hwf) prec x y (constant (F := Ideal) ⟨2, ![A, B]⟩ .f32 0x00000000#32) (ix2 p q)
      = ∑ k : Fin 64, x (ix2 p k) * y (ix2 k q) := by
  show FloatOps.matmul (dotAB A B hwf) prec x y (constant (F := Ideal) ⟨2, ![A, B]⟩ .f32 0x00000000#32) (ix2 p q) = _
  rw [Ideal.matmul_constant_zero_apply, ← Equiv.sum_comp (contrEquiv1 (dotAB A B hwf) 64 rfl rfl).symm]
  refine Finset.sum_congr rfl fun k _ => ?_
  have hk := contrEquiv1_symm_val (dotAB A B hwf) 64 rfl rfl k
  have el : (dotAB A B hwf).lhsIdx (ix2 p q) ((contrEquiv1 (dotAB A B hwf) 64 rfl rfl).symm k) = ix2 p k :=
    funext fun a => Fin.ext (by
      match a with
      | ⟨0, _⟩ => exact dotAB_lhs0 hwf _ _
      | ⟨1, _⟩ => exact (dotAB_lhs1 hwf _ _).trans hk)
  have er : (dotAB A B hwf).rhsIdx (ix2 p q) ((contrEquiv1 (dotAB A B hwf) 64 rfl rfl).symm k) = ix2 k q :=
    funext fun a => Fin.ext (by
      match a with
      | ⟨0, _⟩ => exact (dotAB_rhs0 hwf _ _).trans hk
      | ⟨1, _⟩ => exact dotAB_rhs1 hwf _ _)
  rw [el, er]

end Dot

/-! ## Minimum and maximum along an axis, from +∞ and −∞ -/

/-- The word `0x7F800000` denotes `+∞`. -/
theorem ofBits_posInf : Ideal.ofBits .f32 0x7F800000#32 = (⊤ : EReal) := by simp [Ideal.ofBits, Ideal.ieee]
/-- The word `0xFF800000` denotes `−∞`. -/
theorem ofBits_negInf : Ideal.ofBits .f32 0xFF800000#32 = (⊥ : EReal) := by simp [Ideal.ofBits, Ideal.ieee]

/-- The least element of a row. -/
theorem rowMin_apply {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = FKind.minimumf.neutral .f32 hφ) (p : Fin a) :
    multiReduction (F := Ideal) .minimumf [1] ⟨1, ![a]⟩ src 0x7F800000#32 h hφ hacc (ix1 p)
      = Finset.univ.inf fun k : Fin b => (src (ix2 p k) : EReal) := by
  rw [multiReduction_minimumf_eq_fold, h.fold_filter_drop_single]
  have hl : (src ∘ h.lift (ix1 p)) = fun k : Fin b => src (ix2 p k) :=
    funext fun k => congrArg src (funext fun c => by
      match c with
      | ⟨0, _⟩ => rfl
      | ⟨1, _⟩ => rfl)
  rw [hl]
  show Finset.fold min (Ideal.ofBits .f32 0x7F800000#32) (fun k : Fin b => (src (ix2 p k) : EReal)) Finset.univ = _
  rw [ofBits_posInf]
  rfl

/-- The one index of the one-word shape. -/
theorem idx11 (j : (⟨2, ![1, 1]⟩ : Shape).Idx) : j = ix2 (0 : Fin 1) (0 : Fin 1) := by
  funext c
  match c with
  | ⟨0, _⟩ => exact Fin.ext (by have := idx2_lt0 j; show (j 0).val = 0; omega)
  | ⟨1, _⟩ => exact Fin.ext (by have := idx2_lt1 j; show (j 1).val = 0; omega)

/-- The greatest element of a row. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction (F := Ideal) .maximumf [1] ⟨1, ![a]⟩ src 0xFF800000#32 h hφ hacc (ix1 p)
      = Finset.univ.sup fun k : Fin b => (src (ix2 p k) : EReal) := by
  rw [multiReduction_maximumf_eq_fold, h.fold_filter_drop_single]
  have hl : (src ∘ h.lift (ix1 p)) = fun k : Fin b => src (ix2 p k) :=
    funext fun k => congrArg src (funext fun c => by
      match c with
      | ⟨0, _⟩ => rfl
      | ⟨1, _⟩ => rfl)
  rw [hl]
  show Finset.fold max (Ideal.ofBits .f32 0xFF800000#32) (fun k : Fin b => (src (ix2 p k) : EReal)) Finset.univ = _
  rw [ofBits_negInf]
  rfl

/-- The least element of a one-column matrix. -/
theorem colMin_apply {a : ℕ} (src : FVec Ideal ⟨2, ![a, 1]⟩ .f32)
    (h : (⟨2, ![a, 1]⟩ : Shape).Reduces [0] ⟨1, ![1]⟩) (hφ : FKind.Formats .f32)
    (hacc : (0x7F800000#32 : BitVec 32) = FKind.minimumf.neutral .f32 hφ) (u : Fin 1) :
    multiReduction (F := Ideal) .minimumf [0] ⟨1, ![1]⟩ src 0x7F800000#32 h hφ hacc (ix1 u)
      = Finset.univ.inf fun k : Fin a => (src (ix2 k (0 : Fin 1)) : EReal) := by
  rw [multiReduction_minimumf_eq_fold, h.fold_filter_drop_single]
  have hl : (src ∘ h.lift (ix1 u)) = fun k : Fin a => src (ix2 k (0 : Fin 1)) :=
    funext fun k => congrArg src (funext fun c => by
      match c with
      | ⟨0, _⟩ => rfl
      | ⟨1, _⟩ => exact Fin.ext (by show u.val = 0; omega))
  rw [hl]
  show Finset.fold min (Ideal.ofBits .f32 0x7F800000#32) (fun k : Fin a => (src (ix2 k (0 : Fin 1)) : EReal)) Finset.univ = _
  rw [ofBits_posInf]
  rfl

/-- The greatest element of a one-column matrix. -/
theorem colMax_apply {a : ℕ} (src : FVec Ideal ⟨2, ![a, 1]⟩ .f32)
    (h : (⟨2, ![a, 1]⟩ : Shape).Reduces [0] ⟨1, ![1]⟩) (hφ : FKind.Formats .f32)
    (hacc : (0xFF800000#32 : BitVec 32) = FKind.maximumf.neutral .f32 hφ) (u : Fin 1) :
    multiReduction (F := Ideal) .maximumf [0] ⟨1, ![1]⟩ src 0xFF800000#32 h hφ hacc (ix1 u)
      = Finset.univ.sup fun k : Fin a => (src (ix2 k (0 : Fin 1)) : EReal) := by
  rw [multiReduction_maximumf_eq_fold, h.fold_filter_drop_single]
  have hl : (src ∘ h.lift (ix1 u)) = fun k : Fin a => src (ix2 k (0 : Fin 1)) :=
    funext fun k => congrArg src (funext fun c => by
      match c with
      | ⟨0, _⟩ => rfl
      | ⟨1, _⟩ => exact Fin.ext (by show u.val = 0; omega))
  rw [hl]
  show Finset.fold max (Ideal.ofBits .f32 0xFF800000#32) (fun k : Fin a => (src (ix2 k (0 : Fin 1)) : EReal)) Finset.univ = _
  rw [ofBits_negInf]
  rfl

section All
variable {A B : ℕ}

/-- The least of each row, then the least of those, is the least over all pairs. -/
theorem minAll_apply (d : FVec Ideal ⟨2, ![A, B]⟩ .f32)
    (hr1 : (⟨2, ![A, B]⟩ : Shape).Reduces [1] ⟨1, ![A]⟩) (hφ₁ : FKind.Formats .f32)
    (hacc₁ : (0x7F800000#32 : BitVec 32) = FKind.minimumf.neutral .f32 hφ₁)
    (hk : (⟨1, ![A]⟩ : Shape).ShapeCasts ⟨2, ![A, 1]⟩)
    (hr0 : (⟨2, ![A, 1]⟩ : Shape).Reduces [0] ⟨1, ![1]⟩) (hφ₂ : FKind.Formats .f32)
    (hacc₂ : (0x7F800000#32 : BitVec 32) = FKind.minimumf.neutral .f32 hφ₂)
    (hc : (⟨1, ![1]⟩ : Shape).ShapeCasts ⟨2, ![1, 1]⟩) (j : (⟨2, ![1, 1]⟩ : Shape).Idx) :
    shapeCast ⟨2, ![1, 1]⟩
        (multiReduction (F := Ideal) .minimumf [0] ⟨1, ![1]⟩
          (shapeCast ⟨2, ![A, 1]⟩ (multiReduction (F := Ideal) .minimumf [1] ⟨1, ![A]⟩ d 0x7F800000#32 hr1 hφ₁ hacc₁) hk)
          0x7F800000#32 hr0 hφ₂ hacc₂) hc j
      = Finset.univ.inf fun pq : Fin A × Fin B => (d (ix2 pq.1 pq.2) : EReal) := by
  rw [idx11 j, shapeCast_a_1a_apply, colMin_apply]
  have hrow : (fun k : Fin A => ((shapeCast ⟨2, ![A, 1]⟩
        (multiReduction (F := Ideal) .minimumf [1] ⟨1, ![A]⟩ d 0x7F800000#32 hr1 hφ₁ hacc₁) hk (ix2 k (0 : Fin 1))) : EReal))
      = fun k : Fin A => Finset.univ.inf fun q : Fin B => (d (ix2 k q) : EReal) :=
    funext fun k => by rw [shapeCast_a_a1_apply, rowMin_apply]
  rw [hrow, ← Finset.univ_product_univ, Finset.inf_product_left]

/-- The greatest of each row, then the greatest of those, is the greatest over all pairs. -/
theorem maxAll_apply (d : FVec Ideal ⟨2, ![A, B]⟩ .f32)
    (hr1 : (⟨2, ![A, B]⟩ : Shape).Reduces [1] ⟨1, ![A]⟩) (hφ₁ : FKind.Formats .f32)
    (hacc₁ : (0xFF800000#32 : BitVec 32) = FKind.maximumf.neutral .f32 hφ₁)
    (hk : (⟨1, ![A]⟩ : Shape).ShapeCasts ⟨2, ![A, 1]⟩)
    (hr0 : (⟨2, ![A, 1]⟩ : Shape).Reduces [0] ⟨1, ![1]⟩) (hφ₂ : FKind.Formats .f32)
    (hacc₂ : (0xFF800000#32 : BitVec 32) = FKind.maximumf.neutral .f32 hφ₂)
    (hc : (⟨1, ![1]⟩ : Shape).ShapeCasts ⟨2, ![1, 1]⟩) (j : (⟨2, ![1, 1]⟩ : Shape).Idx) :
    shapeCast ⟨2, ![1, 1]⟩
        (multiReduction (F := Ideal) .maximumf [0] ⟨1, ![1]⟩
          (shapeCast ⟨2, ![A, 1]⟩ (multiReduction (F := Ideal) .maximumf [1] ⟨1, ![A]⟩ d 0xFF800000#32 hr1 hφ₁ hacc₁) hk)
          0xFF800000#32 hr0 hφ₂ hacc₂) hc j
      = Finset.univ.sup fun pq : Fin A × Fin B => (d (ix2 pq.1 pq.2) : EReal) := by
  rw [idx11 j, shapeCast_a_1a_apply, colMax_apply]
  have hrow : (fun k : Fin A => ((shapeCast ⟨2, ![A, 1]⟩
        (multiReduction (F := Ideal) .maximumf [1] ⟨1, ![A]⟩ d 0xFF800000#32 hr1 hφ₁ hacc₁) hk (ix2 k (0 : Fin 1))) : EReal))
      = fun k : Fin A => Finset.univ.sup fun q : Fin B => (d (ix2 k q) : EReal) :=
    funext fun k => by rw [shapeCast_a_a1_apply, rowMax_apply]
  rw [hrow, ← Finset.univ_product_univ, Finset.sup_product_left]

end All

/-! ## The distance block both kernels compute -/

section Block
variable {A B : ℕ}

/-- The kernels' arithmetic for a block of distances, read at `(p, q)`: squared norms of row `p` of `u` and row
    `q` of `v` by sums along the rows, their inner product by the matrix product with the transposed block, and the
    clamped root — the specification's `dblk`. -/
theorem distBlock_apply
    (u : FVec Ideal ⟨3, ![1, A, 64]⟩ .f32) (v : FVec Ideal ⟨3, ![1, B, 64]⟩ .f32)
    (hcu : (⟨3, ![1, A, 64]⟩ : Shape).ShapeCasts ⟨2, ![A, 64]⟩)
    (hcv : (⟨3, ![1, B, 64]⟩ : Shape).ShapeCasts ⟨2, ![B, 64]⟩)
    (hru : (⟨2, ![A, 64]⟩ : Shape).Reduces [1] ⟨1, ![A]⟩)
    (hrv : (⟨2, ![B, 64]⟩ : Shape).Reduces [1] ⟨1, ![B]⟩)
    (hφ₁ hφ₂ : FKind.Formats .f32)
    (ha₁ : (0x00000000#32 : BitVec 32) = FKind.add.neutral .f32 hφ₁)
    (ha₂ : (0x00000000#32 : BitVec 32) = FKind.add.neutral .f32 hφ₂)
    (hku : (⟨1, ![A]⟩ : Shape).ShapeCasts ⟨2, ![A, 1]⟩)
    (hkv : (⟨1, ![B]⟩ : Shape).ShapeCasts ⟨2, ![1, B]⟩)
    (ht : (⟨2, ![B, 64]⟩ : Shape).Transposes [1, 0] ⟨2, ![64, B]⟩)
    (hbu : (⟨2, ![A, 1]⟩ : Shape).Broadcasts ⟨2, ![A, B]⟩)
    (hbv : (⟨2, ![1, B]⟩ : Shape).Broadcasts ⟨2, ![A, B]⟩)
    (hwf : DotDims.WF (⟨2, ![A, 64]⟩ : Shape) ⟨2, ![64, B]⟩ ⟨2, ![A, B]⟩ [1] [0] [0] [1] [] [])
    (p : Fin A) (q : Fin B) :
    sqrt (maximumf
      (subf
        (addf
          (broadcastTo ⟨2, ![A, B]⟩ (shapeCast ⟨2, ![A, 1]⟩
            (multiReduction (F := Ideal) .add [1] ⟨1, ![A]⟩ (mulf (shapeCast ⟨2, ![A, 64]⟩ u hcu) (shapeCast ⟨2, ![A, 64]⟩ u hcu))
              0x00000000#32 hru hφ₁ ha₁) hku) hbu)
          (broadcastTo ⟨2, ![A, B]⟩ (shapeCast ⟨2, ![1, B]⟩
            (multiReduction (F := Ideal) .add [1] ⟨1, ![B]⟩ (mulf (shapeCast ⟨2, ![B, 64]⟩ v hcv) (shapeCast ⟨2, ![B, 64]⟩ v hcv))
              0x00000000#32 hrv hφ₂ ha₂) hkv) hbv))
        (mulf (broadcast ⟨2, ![A, B]⟩ (Scalar.ofBits (F := Ideal) .f32 0x40000000#32))
          (matmul (F := Ideal) (dotAB A B hwf) (some .fp32) (shapeCast ⟨2, ![A, 64]⟩ u hcu)
            (transpose ⟨2, ![64, B]⟩ [1, 0] (shapeCast ⟨2, ![B, 64]⟩ v hcv) ht)
            (constant (F := Ideal) ⟨2, ![A, B]⟩ .f32 0x00000000#32))))
      (broadcast ⟨2, ![A, B]⟩ (Scalar.ofBits (F := Ideal) .f32 0x00000000#32))) (ix2 p q)
    = Cert.Dist.dblk u v p q := by
  have hU : broadcastTo ⟨2, ![A, B]⟩ (shapeCast ⟨2, ![A, 1]⟩
        (multiReduction (F := Ideal) .add [1] ⟨1, ![A]⟩ (mulf (shapeCast ⟨2, ![A, 64]⟩ u hcu) (shapeCast ⟨2, ![A, 64]⟩ u hcu))
          0x00000000#32 hru hφ₁ ha₁) hku) hbu (ix2 p q)
      = ∑ k : Fin 64, u (ix3 0 p k) * u (ix3 0 p k) := by
    rw [broadcastTo_a1_ab_apply, shapeCast_a_a1_apply, rowSum_apply]
    refine Finset.sum_congr rfl fun k _ => ?_
    rw [mulf_apply, shapeCast_1ab_ab_apply]
  have hV : broadcastTo ⟨2, ![A, B]⟩ (shapeCast ⟨2, ![1, B]⟩
        (multiReduction (F := Ideal) .add [1] ⟨1, ![B]⟩ (mulf (shapeCast ⟨2, ![B, 64]⟩ v hcv) (shapeCast ⟨2, ![B, 64]⟩ v hcv))
          0x00000000#32 hrv hφ₂ ha₂) hkv) hbv (ix2 p q)
      = ∑ k : Fin 64, v (ix3 0 q k) * v (ix3 0 q k) := by
    rw [broadcastTo_1b_ab_apply, shapeCast_a_1a_apply, rowSum_apply]
    refine Finset.sum_congr rfl fun k _ => ?_
    rw [mulf_apply, shapeCast_1ab_ab_apply]
  have hG : matmul (F := Ideal) (dotAB A B hwf) (some .fp32) (shapeCast ⟨2, ![A, 64]⟩ u hcu)
        (transpose ⟨2, ![64, B]⟩ [1, 0] (shapeCast ⟨2, ![B, 64]⟩ v hcv) ht)
        (constant (F := Ideal) ⟨2, ![A, B]⟩ .f32 0x00000000#32) (ix2 p q)
      = ∑ k : Fin 64, u (ix3 0 p k) * v (ix3 0 q k) := by
    rw [matmul_AB_apply]
    refine Finset.sum_congr rfl fun k _ => ?_
    rw [shapeCast_1ab_ab_apply, transpose_ix2_apply, shapeCast_1ab_ab_apply]
  unfold Cert.Dist.dblk
  rw [← hU, ← hV, ← hG]
  rfl

end Block

/-! ## The first kernel's payloads -/

theorem pay4_apply (v5 : Vec Ideal S1x4096x64 .f32) (v7 : Vec Ideal S1x256x64 .f32) (p : Fin 4096) (q : Fin 256) :
    k0_pay4 (F := Ideal) v5 v7 (ix2 p q) = Cert.Dist.dblk v5 v7 p q := by
  unfold k0_pay4
  exact distBlock_apply v5 v7 _ _ _ _ _ _ _ _ _ _ _ _ _ _ p q

/-- The word `0x7F800000` is `+∞`. -/
theorem pay2_top (j : S1x1.Idx) : k0_pay2 (F := Ideal) j = (⊤ : EReal) := ofBits_posInf
/-- The word `0xFF800000` is `−∞`. -/
theorem pay3_bot (j : S1x1.Idx) : k0_pay3 (F := Ideal) j = (⊥ : EReal) := ofBits_negInf

/-- The minimum accumulator's new word: the old word against the least distance of the block pair. -/
theorem pay6_apply (x0 : Vec Ideal S1x4096x64 .f32) (x1 : Vec Ideal S1x256x64 .f32) (a : Vec Ideal S1x1 .f32) (j : S1x1.Idx) :
    k0_pay6 (F := Ideal) x0 x1 a j
      = min (a (ix2 0 0)) (Finset.univ.inf fun pq : Fin 4096 × Fin 256 => Cert.Dist.dblk x0 x1 pq.1 pq.2) := by
  unfold k0_pay6
  refine (minimumf_apply _ _ j).trans ?_
  refine congrArg₂ min ?_ ?_
  · rw [shapeCast_self]; exact congrArg a (idx11 j)
  · refine (minAll_apply (k0_pay4 (F := Ideal) x0 x1) _ _ _ _ _ _ _ _ j).trans ?_
    exact Finset.inf_congr rfl fun pq _ => pay4_apply x0 x1 pq.1 pq.2

/-- The greatest distance of the block pair. -/
theorem pay5_apply (x0 : Vec Ideal S1x4096x64 .f32) (x1 : Vec Ideal S1x256x64 .f32) (j : S1x1.Idx) :
    k0_pay5 (F := Ideal) x0 x1 j
      = Finset.univ.sup fun pq : Fin 4096 × Fin 256 => Cert.Dist.dblk x0 x1 pq.1 pq.2 := by
  unfold k0_pay5
  refine (maxAll_apply (k0_pay4 (F := Ideal) x0 x1) _ _ _ _ _ _ _ _ j).trans ?_
  exact Finset.sup_congr rfl fun pq _ => pay4_apply x0 x1 pq.1 pq.2

/-- The maximum accumulator's new word: the old word against the greatest distance of the block pair. -/
theorem pay1_pay5_apply (x0 : Vec Ideal S1x4096x64 .f32) (x1 : Vec Ideal S1x256x64 .f32) (a : Vec Ideal S1x1 .f32) (j : S1x1.Idx) :
    k0_pay1 (F := Ideal) (k0_pay5 x0 x1) a j
      = max (a (ix2 0 0)) (Finset.univ.sup fun pq : Fin 4096 × Fin 256 => Cert.Dist.dblk x0 x1 pq.1 pq.2) := by
  unfold k0_pay1
  refine (maximumf_apply _ _ j).trans ?_
  refine congrArg₂ max ?_ ?_
  · rw [shapeCast_self]; exact congrArg a (idx11 j)
  · exact pay5_apply x0 x1 j

end Cert.KernelIdeal.PayIdx

end
-- ==== Proof.PayIdx1.lean ====
/-
  The second kernel's stored tile read at an index, over the extended reals: the diagonal mask — the global row
  512·i₁ + p against the global column 512·i₂ + q, compared as 32-bit words, which below 4096 is the comparison of
  the naturals —, the distance block normalized by the two scalars it was handed, and the select between the word
  for one and that quotient.
-/
import proofs.«160997_j46858093199670_1_alg».proof.Proof.PayIdx0

noncomputable section

open scoped BigOperators

namespace Cert.KernelIdeal.PayIdx

open Idealize.ShloMosaic Idealize.ShloMosaic.ValueIdx
open Cert.KernelIdeal Cert.KernelIdeal.Gen

/-! ## The second kernel's payloads -/

/-- For tile numbers below 8 and in-tile coordinates below 512 the 32-bit words do not wrap: their equality is the
    equality of the naturals. -/
theorem word_eq_iff (a b p q : ℕ) (ha : a < 8) (hb : b < 8) (hp : p < 512) (hq : q < 512) :
    (BitVec.ofNat 32 a * 512#32 + BitVec.ofNat 32 p = BitVec.ofNat 32 b * 512#32 + BitVec.ofNat 32 q)
      ↔ a * 512 + p = b * 512 + q := by
  rw [← BitVec.toNat_inj]
  simp only [BitVec.toNat_add, BitVec.toNat_mul, BitVec.toNat_ofNat, Nat.reducePow]
  omega

/-- The comparison for equality of two words, as a bit. -/
theorem cmpi_eq_words (x y : BitVec 32) : IntOp.cmpi .eq x y = if x = y then 1#1 else 0#1 := by
  unfold IntOp.cmpi
  by_cases h : x = y
  · subst h; simp
  · have hb : (x == y) = false := beq_eq_false_iff_ne.mpr h
    simp [h, hb]

/-- The position read out of a one-word vector is its one element. -/
theorem extractAt00 {α : Type} (x : (⟨2, ![1, 1]⟩ : Shape).Idx → α)
    (h : ∀ a, (![0, 0] : Fin 2 → Nat) a < (⟨2, ![1, 1]⟩ : Shape).size a) :
    extractAt ![0, 0] x h = x (ix2 (0 : Fin 1) (0 : Fin 1)) :=
  congrArg x (funext fun a => by
    match a with
    | ⟨0, _⟩ => rfl
    | ⟨1, _⟩ => rfl)

/-- The diagonal mask at `(p, q)` of tile `(i₁, i₂)`: set exactly where the global row equals the global column. -/
theorem k1_pay3_apply (i : grid1.Coords) (p q : Fin 512) :
    k1_pay3 i (ix2 p q) = if (i 1).val * 512 + p.val = (i 2).val * 512 + q.val then 1#1 else 0#1 := by
  unfold k1_pay3
  show IntOp.cmpi .eq
      (IntOp.addi (Scalar.muli (BitVec.ofNat 32 (i 1).val) 512#32) (iota .tc S512x512 32 [0] iota_S512x512_d0_w32 (ix2 p q)))
      (IntOp.addi (Scalar.muli (BitVec.ofNat 32 (i 2).val) 512#32) (iota .tc S512x512 32 [1] iota_S512x512_d1_w32 (ix2 p q))) = _
  rw [iota_single_apply, iota_single_apply, cmpi_eq_words]
  exact if_congr (word_eq_iff (i 1).val (i 2).val p.val q.val (i 1).isLt (i 2).isLt p.isLt q.isLt) rfl rfl

/-- The normalized distance at `(p, q)`. -/
theorem k1_pay2_apply (x0 x1 : Vec Ideal S1x512x64 .f32) (x2 x3 : Vec Ideal S1x1 .f32) (p q : Fin 512) :
    k1_pay2 (F := Ideal) x0 x1 x2 x3 (ix2 p q)
      = Ideal.div (Cert.Dist.dblk x0 x1 p q - x2 (ix2 0 0)) (x3 (ix2 0 0) - x2 (ix2 0 0)) := by
  unfold k1_pay2
  refine (divf_apply _ _ _).trans ?_
  refine congrArg₂ Ideal.div ?_ ?_
  · refine (subf_apply _ _ _).trans ?_
    refine congrArg₂ (fun a b : EReal => a - b) ?_ ?_
    · exact distBlock_apply x0 x1 _ _ _ _ _ _ _ _ _ _ _ _ _ _ p q
    · exact extractAt00 x2 _
  · show Scalar.subf (F := Ideal) (extractAt ![0, 0] x3 _) (extractAt ![0, 0] x2 _) = _
    rw [Ideal.scalar_subf_def, extractAt00, extractAt00]

/-- The stored tile at `(0, p, q)`: one on the diagonal, the normalized distance elsewhere. -/
theorem k1_pay1_apply (i : grid1.Coords) (x0 x1 : Vec Ideal S1x512x64 .f32) (x2 x3 : Vec Ideal S1x1 .f32) (p q : Fin 512) :
    k1_pay1 (F := Ideal) (k1_pay2 x0 x1 x2 x3) (k1_pay3 i) (Scalar.ofBits .f32 0x3F800000#32) (ix3 0 p q)
      = if (i 1).val * 512 + p.val = (i 2).val * 512 + q.val then Ideal.ofBits .f32 0x3F800000#32
        else Ideal.div (Cert.Dist.dblk x0 x1 p q - x2 (ix2 0 0)) (x3 (ix2 0 0) - x2 (ix2 0 0)) := by
  unfold k1_pay1
  refine (shapeCast_ab_1ab_apply _ _ (0 : Fin 1) p q).trans ?_
  refine (select_apply _ _ _ (ix2 p q)).trans ?_
  rw [k1_pay3_apply, k1_pay2_apply]
  by_cases hc : (i 1).val * 512 + p.val = (i 2).val * 512 + q.val
  · rw [if_pos hc, if_pos hc]; exact select_one _ _
  · rw [if_neg hc, if_neg hc]; exact select_zero _ _

end Cert.KernelIdeal.PayIdx

end
-- ==== Proof.PayIdx.lean ====
/-
  What the two kernel bodies store, read at an index over the extended reals: the first body's minimum and maximum
  accumulators after one grid point, and the second body's tile.
-/
import proofs.«160997_j46858093199670_1_alg».proof.Proof.Body0
import proofs.«160997_j46858093199670_1_alg».proof.Proof.Body1
import proofs.«160997_j46858093199670_1_alg».proof.Proof.Spec
import proofs.«160997_j46858093199670_1_alg».proof.Proof.PayIdx0
import proofs.«160997_j46858093199670_1_alg».proof.Proof.PayIdx1

noncomputable section

open scoped BigOperators

namespace Cert.KernelIdeal.PayIdx

open Idealize.ShloMosaic Idealize.ShloMosaic.ValueIdx
open Cert.KernelIdeal Cert.KernelIdeal.Gen

/-- The minimum accumulator after the body: the word before against the least distance between a row of the matrix
    and a row of the block. -/
theorem minOut_apply (x0 : Vec Ideal S1x4096x64 .f32) (x1 : Vec Ideal S1x256x64 .f32) (a : Vec Ideal S1x1 .f32) (j : S1x1.Idx) :
    Cert.KernelIdeal.Hand0.minOut (F := Ideal) x0 x1 a j
      = min (a (ix2 0 0)) (Finset.univ.inf fun pq : Fin 4096 × Fin 256 => Cert.Dist.dblk x0 x1 pq.1 pq.2) := by
  unfold Cert.KernelIdeal.Hand0.minOut
  exact pay6_apply x0 x1 a j

/-- The maximum accumulator after the body: the word before against the greatest such distance. -/
theorem maxOut_apply (x0 : Vec Ideal S1x4096x64 .f32) (x1 : Vec Ideal S1x256x64 .f32) (a : Vec Ideal S1x1 .f32) (j : S1x1.Idx) :
    Cert.KernelIdeal.Hand0.maxOut (F := Ideal) x0 x1 a j
      = max (a (ix2 0 0)) (Finset.univ.sup fun pq : Fin 4096 × Fin 256 => Cert.Dist.dblk x0 x1 pq.1 pq.2) := by
  unfold Cert.KernelIdeal.Hand0.maxOut
  exact pay1_pay5_apply x0 x1 a j

/-- The tile the second body stores, at `(0, p, q)`: one where the global row equals the global column, the
    distance normalized by the two scalars elsewhere. -/
theorem tileOut_apply (i : grid1.Coords) (x0 x1 : Vec Ideal S1x512x64 .f32) (x2 x3 : Vec Ideal S1x1 .f32) (p q : Fin 512) :
    Cert.KernelIdeal.Hand.tileOut (F := Ideal) i x0 x1 x2 x3 (ix3 0 p q)
      = if (i 1).val * 512 + p.val = (i 2).val * 512 + q.val then Ideal.ofBits .f32 0x3F800000#32
        else Ideal.div (Cert.Dist.dblk x0 x1 p q - x2 (ix2 0 0)) (x3 (ix2 0 0) - x2 (ix2 0 0)) := by
  unfold Cert.KernelIdeal.Hand.tileOut
  exact k1_pay1_apply i x0 x1 x2 x3 p q

end Cert.KernelIdeal.PayIdx

end
-- ==== Proof.Fold.lean ====
/-
  The least and the greatest distance, gathered block by block.

  The distances of matrix b can be read off blocks of its rows: a block of rows o … o+R−1 (held with a leading axis of
  extent one) against another block gives, at (p, q), the distance between rows o+p and o'+q. Cutting the columns of
  each of the four 4096 × 4096 distance matrices into sixteen blocks of 256 gives 64 pieces, numbered t = 16·b + block;
  the least distance is the least of the 64 pieces' least entries, taken one piece after the other starting from plus
  infinity, and the greatest distance likewise from minus infinity: every pair (n, m) lies in exactly the piece of
  m's block, m = 256·(m / 256) + m % 256.
-/
import proofs.«160997_j46858093199670_1_alg».proof.Proof.Spec

noncomputable section

open scoped BigOperators

namespace Cert.Dist

open Idealize.ShloMosaic Idealize.ShloMosaic.ValueIdx

/-- Rows o … o+R−1 of matrix b, as a block with a leading axis of extent one. -/
def rows (x : SX.Idx → EReal) (b : Fin 4) (R o : Nat) (h : o + R ≤ 4096) : (⟨3, ![1, R, 64]⟩ : Shape).Idx → EReal :=
  fun i => x (ix3 b ⟨o + (i 1).val, by have : (i 1).val < R := (i 1).isLt; omega⟩ (i 2))

/-- Entry (0, p, k) of the block is entry k of row o + p. -/
theorem rows_ix3 (x : SX.Idx → EReal) (b : Fin 4) (R o : Nat) (h : o + R ≤ 4096) (p : Fin R) (k : Fin 64) :
    rows x b R o h (ix3 0 p k) = x (ix3 b ⟨o + p.val, by omega⟩ k) := rfl

/-- The distance read off two blocks of rows of matrix b is the distance between the two rows, whichever way the
    matrix and the two rows are named. -/
theorem dblk_rows_eq (x : SX.Idx → EReal) (b : Fin 4) (R1 o1 : Nat) (h1 : o1 + R1 ≤ 4096) (R2 o2 : Nat)
    (h2 : o2 + R2 ≤ 4096) (p : Fin R1) (q : Fin R2) (b' : Fin 4) (n m : Fin 4096) (hb : b.val = b'.val)
    (hn : o1 + p.val = n.val) (hm : o2 + q.val = m.val) :
    dblk (rows x b R1 o1 h1) (rows x b R2 o2 h2) p q = dist x b' n m := by
  obtain rfl : b = b' := Fin.ext hb
  obtain rfl : n = ⟨o1 + p.val, Nat.lt_of_lt_of_le (Nat.add_lt_add_left p.isLt o1) h1⟩ := Fin.ext hn.symm
  obtain rfl : m = ⟨o2 + q.val, Nat.lt_of_lt_of_le (Nat.add_lt_add_left q.isLt o2) h2⟩ := Fin.ext hm.symm
  rfl

/-- A tile of 512 rows against 512 rows of matrix b. -/
theorem dblk_rows (x : SX.Idx → EReal) (b : Fin 4) (i j : Fin 8) (p q : Fin 512) :
    dblk (rows x b 512 (i.val * 512) (by omega)) (rows x b 512 (j.val * 512) (by omega)) p q
      = dist x b ⟨i.val * 512 + p.val, by omega⟩ ⟨j.val * 512 + q.val, by omega⟩ :=
  dblk_rows_eq x b 512 _ _ 512 _ _ p q b _ _ rfl rfl rfl

/-- All rows of matrix b against one block of 256 rows. -/
theorem dblk_rows_full (x : SX.Idx → EReal) (b : Fin 4) (jb : Fin 16) (p : Fin 4096) (q : Fin 256) :
    dblk (rows x b 4096 0 (by omega)) (rows x b 256 (jb.val * 256) (by omega)) p q
      = dist x b p ⟨jb.val * 256 + q.val, by omega⟩ :=
  dblk_rows_eq x b 4096 _ _ 256 _ _ p q b _ _ rfl (Nat.zero_add _) rfl

/-- The least distance between all rows of matrix t / 16 and its block of 256 rows number t % 16. -/
def blockInf (x : SX.Idx → EReal) (t : Nat) (ht : t < 64) : EReal :=
  Finset.univ.inf fun pq : Fin 4096 × Fin 256 =>
    dblk (rows x ⟨t / 16, by omega⟩ 4096 0 (by omega)) (rows x ⟨t / 16, by omega⟩ 256 (t % 16 * 256) (by omega)) pq.1 pq.2

/-- The greatest distance between all rows of matrix t / 16 and its block of 256 rows number t % 16. -/
def blockSup (x : SX.Idx → EReal) (t : Nat) (ht : t < 64) : EReal :=
  Finset.univ.sup fun pq : Fin 4096 × Fin 256 =>
    dblk (rows x ⟨t / 16, by omega⟩ 4096 0 (by omega)) (rows x ⟨t / 16, by omega⟩ 256 (t % 16 * 256) (by omega)) pq.1 pq.2

/-- The running minimum after piece n, from plus infinity. -/
def accLo (x : SX.Idx → EReal) : (n : Nat) → n < 64 → EReal
  | 0, h => min ⊤ (blockInf x 0 h)
  | n + 1, h => min (accLo x n (Nat.lt_of_succ_lt h)) (blockInf x (n + 1) h)

/-- The running maximum after piece n, from minus infinity. -/
def accHi (x : SX.Idx → EReal) : (n : Nat) → n < 64 → EReal
  | 0, h => max ⊥ (blockSup x 0 h)
  | n + 1, h => max (accHi x n (Nat.lt_of_succ_lt h)) (blockSup x (n + 1) h)

/-- The running minimum is below every piece taken so far … -/
theorem accLo_le (x : SX.Idx → EReal) :
    ∀ (n : Nat) (h : n < 64) (t : Nat) (ht : t ≤ n), accLo x n h ≤ blockInf x t (lt_of_le_of_lt ht h)
  | 0, h, t, ht => by
    obtain rfl : t = 0 := Nat.le_zero.mp ht
    rw [accLo]; exact min_le_right _ _
  | n + 1, h, t, ht => by
    rw [accLo]
    rcases Nat.lt_or_eq_of_le ht with hlt | rfl
    · exact (min_le_left _ _).trans (accLo_le x n _ t (Nat.le_of_lt_succ hlt))
    · exact min_le_right _ _

/-- … and is the greatest such number. -/
theorem le_accLo (x : SX.Idx → EReal) (c : EReal) :
    ∀ (n : Nat) (h : n < 64), (∀ (t : Nat) (ht : t ≤ n), c ≤ blockInf x t (lt_of_le_of_lt ht h)) → c ≤ accLo x n h
  | 0, h, hc => by rw [accLo]; exact le_min le_top (hc 0 le_rfl)
  | n + 1, h, hc => by
    rw [accLo]
    exact le_min (le_accLo x c n _ fun t ht => hc t (Nat.le_succ_of_le ht)) (hc (n + 1) le_rfl)

/-- The running maximum is above every piece taken so far … -/
theorem le_accHi (x : SX.Idx → EReal) :
    ∀ (n : Nat) (h : n < 64) (t : Nat) (ht : t ≤ n), blockSup x t (lt_of_le_of_lt ht h) ≤ accHi x n h
  | 0, h, t, ht => by
    obtain rfl : t = 0 := Nat.le_zero.mp ht
    rw [accHi]; exact le_max_right _ _
  | n + 1, h, t, ht => by
    rw [accHi]
    rcases Nat.lt_or_eq_of_le ht with hlt | rfl
    · exact (le_accHi x n _ t (Nat.le_of_lt_succ hlt)).trans (le_max_left _ _)
    · exact le_max_right _ _

/-- … and is the least such number. -/
theorem accHi_le (x : SX.Idx → EReal) (c : EReal) :
    ∀ (n : Nat) (h : n < 64), (∀ (t : Nat) (ht : t ≤ n), blockSup x t (lt_of_le_of_lt ht h) ≤ c) → accHi x n h ≤ c
  | 0, h, hc => by rw [accHi]; exact max_le bot_le (hc 0 le_rfl)
  | n + 1, h, hc => by
    rw [accHi]
    exact max_le (accHi_le x c n _ fun t ht => hc t (Nat.le_succ_of_le ht)) (hc (n + 1) le_rfl)

/-- An entry of piece t is the distance between row p and row 256·(t % 16) + q of matrix t / 16. -/
theorem piece_entry (x : SX.Idx → EReal) (t : Nat) (ht : t < 64) (p : Fin 4096) (q : Fin 256) :
    dblk (rows x ⟨t / 16, by omega⟩ 4096 0 (by omega)) (rows x ⟨t / 16, by omega⟩ 256 (t % 16 * 256) (by omega)) p q
      = dist x ⟨t / 16, by omega⟩ p ⟨t % 16 * 256 + q.val, by omega⟩ :=
  dblk_rows_eq x _ 4096 _ _ 256 _ _ p q _ _ _ rfl (Nat.zero_add _) rfl

/-- The least entry of a family over pairs is below each entry … -/
theorem inf_pair_le {A B : Type} [Fintype A] [Fintype B] (g : A → B → EReal) (p : A) (q : B) :
    (Finset.univ.inf fun pq : A × B => g pq.1 pq.2) ≤ g p q :=
  Finset.inf_le (f := fun pq : A × B => g pq.1 pq.2) (Finset.mem_univ ((p, q) : A × B))

/-- … and the greatest entry above each. -/
theorem le_sup_pair {A B : Type} [Fintype A] [Fintype B] (g : A → B → EReal) (p : A) (q : B) :
    g p q ≤ Finset.univ.sup fun pq : A × B => g pq.1 pq.2 :=
  Finset.le_sup (f := fun pq : A × B => g pq.1 pq.2) (Finset.mem_univ ((p, q) : A × B))

/-- The same over triples. -/
theorem inf_triple_le {A B C : Type} [Fintype A] [Fintype B] [Fintype C] (g : A → B → C → EReal) (a : A) (b : B) (c : C) :
    (Finset.univ.inf fun p : A × B × C => g p.1 p.2.1 p.2.2) ≤ g a b c :=
  Finset.inf_le (f := fun p : A × B × C => g p.1 p.2.1 p.2.2) (Finset.mem_univ ((a, b, c) : A × B × C))

theorem le_sup_triple {A B C : Type} [Fintype A] [Fintype B] [Fintype C] (g : A → B → C → EReal) (a : A) (b : B) (c : C) :
    g a b c ≤ Finset.univ.sup fun p : A × B × C => g p.1 p.2.1 p.2.2 :=
  Finset.le_sup (f := fun p : A × B × C => g p.1 p.2.1 p.2.2) (Finset.mem_univ ((a, b, c) : A × B × C))

/-- The distance depends on the numbers of the matrix and of the two rows only. -/
theorem dist_congr (x : SX.Idx → EReal) {b b' : Fin 4} {n n' m m' : Fin 4096} (hb : b.val = b'.val)
    (hn : n.val = n'.val) (hm : m.val = m'.val) : dist x b n m = dist x b' n' m' := by
  obtain rfl : b = b' := Fin.ext hb
  obtain rfl : n = n' := Fin.ext hn
  obtain rfl : m = m' := Fin.ext hm
  rfl

/-- The least distance is below every distance, and is the greatest such number. -/
theorem lo_le (x : SX.Idx → EReal) (b : Fin 4) (n m : Fin 4096) : lo x ≤ dist x b n m := by
  rw [lo]; exact inf_triple_le (fun b n m => dist x b n m) b n m

theorem le_lo (x : SX.Idx → EReal) (c : EReal) (hc : ∀ (b : Fin 4) (n m : Fin 4096), c ≤ dist x b n m) : c ≤ lo x := by
  rw [lo]; exact Finset.le_inf fun p _ => hc p.1 p.2.1 p.2.2

/-- The greatest distance is above every distance, and is the least such number. -/
theorem le_hi (x : SX.Idx → EReal) (b : Fin 4) (n m : Fin 4096) : dist x b n m ≤ hi x := by
  rw [hi]; exact le_sup_triple (fun b n m => dist x b n m) b n m

theorem hi_le (x : SX.Idx → EReal) (c : EReal) (hc : ∀ (b : Fin 4) (n m : Fin 4096), dist x b n m ≤ c) : hi x ≤ c := by
  rw [hi]; exact Finset.sup_le fun p _ => hc p.1 p.2.1 p.2.2

/-- A piece's least entry is below each of its entries, and is the greatest such number. -/
theorem blockInf_le (x : SX.Idx → EReal) (t : Nat) (ht : t < 64) (p : Fin 4096) (q : Fin 256) :
    blockInf x t ht ≤ dist x ⟨t / 16, by omega⟩ p ⟨t % 16 * 256 + q.val, by omega⟩ := by
  rw [← piece_entry x t ht p q, blockInf]
  exact inf_pair_le (fun p q => dblk (rows x ⟨t / 16, by omega⟩ 4096 0 (by omega))
    (rows x ⟨t / 16, by omega⟩ 256 (t % 16 * 256) (by omega)) p q) p q

theorem le_blockInf (x : SX.Idx → EReal) (t : Nat) (ht : t < 64) (c : EReal)
    (hc : ∀ (p : Fin 4096) (q : Fin 256), c ≤ dist x ⟨t / 16, by omega⟩ p ⟨t % 16 * 256 + q.val, by omega⟩) :
    c ≤ blockInf x t ht := by
  rw [blockInf]
  refine Finset.le_inf ?_
  rintro ⟨p, q⟩ _
  exact (hc p q).trans (le_of_eq (piece_entry x t ht p q).symm)

/-- A piece's greatest entry is above each of its entries, and is the least such number. -/
theorem le_blockSup (x : SX.Idx → EReal) (t : Nat) (ht : t < 64) (p : Fin 4096) (q : Fin 256) :
    dist x ⟨t / 16, by omega⟩ p ⟨t % 16 * 256 + q.val, by omega⟩ ≤ blockSup x t ht := by
  rw [← piece_entry x t ht p q, blockSup]
  exact le_sup_pair (fun p q => dblk (rows x ⟨t / 16, by omega⟩ 4096 0 (by omega))
    (rows x ⟨t / 16, by omega⟩ 256 (t % 16 * 256) (by omega)) p q) p q

theorem blockSup_le (x : SX.Idx → EReal) (t : Nat) (ht : t < 64) (c : EReal)
    (hc : ∀ (p : Fin 4096) (q : Fin 256), dist x ⟨t / 16, by omega⟩ p ⟨t % 16 * 256 + q.val, by omega⟩ ≤ c) :
    blockSup x t ht ≤ c := by
  rw [blockSup]
  refine Finset.sup_le ?_
  rintro ⟨p, q⟩ _
  exact (le_of_eq (piece_entry x t ht p q)).trans (hc p q)

/-- After the last piece the running minimum is the least distance. -/
theorem accLo_last (x : SX.Idx → EReal) : accLo x 63 (by decide) = lo x := by
  refine le_antisymm (le_lo x _ fun b n m => ?_)
    (le_accLo x (lo x) 63 _ fun t ht => le_blockInf x t _ _ fun p q => lo_le x _ _ _)
  refine (accLo_le x 63 _ (b.val * 16 + m.val / 256) (by omega)).trans ?_
  refine (blockInf_le x _ _ n ⟨m.val % 256, by omega⟩).trans (le_of_eq ?_)
  exact dist_congr x (by show (b.val * 16 + m.val / 256) / 16 = b.val; omega) rfl
    (by show (b.val * 16 + m.val / 256) % 16 * 256 + m.val % 256 = m.val; omega)

/-- After the last piece the running maximum is the greatest distance. -/
theorem accHi_last (x : SX.Idx → EReal) : accHi x 63 (by decide) = hi x := by
  refine le_antisymm (accHi_le x (hi x) 63 _ fun t ht => blockSup_le x t _ _ fun p q => le_hi x _ _ _)
    (hi_le x _ fun b n m => ?_)
  refine le_trans ?_ (le_accHi x 63 _ (b.val * 16 + m.val / 256) (by omega))
  refine le_trans (le_of_eq ?_) (le_blockSup x _ _ n ⟨m.val % 256, by omega⟩)
  exact dist_congr x (by show b.val = (b.val * 16 + m.val / 256) / 16; omega) rfl
    (by show m.val = (b.val * 16 + m.val / 256) % 16 * 256 + m.val % 256; omega)

end Cert.Dist

end
-- ==== Proof.Value0.lean ====
/-
  The first region's two results: the least and the greatest distance.

  At grid point t the region holds all 4096 rows of matrix t / 16 in its first window and rows 256·(t % 16) …
  256·(t % 16) + 255 of the same matrix in its second. Point by point the minimum accumulator therefore runs through
  the running minimum of the 64 pieces of the distance matrices, and the maximum accumulator through the running
  maximum; the accumulators are written back once, after the last point, each into its one-entry array, which so ends
  holding the least, respectively the greatest, of all distances.
-/
import proofs.«160997_j46858093199670_1_alg».proof.Proof.Dat0
import proofs.«160997_j46858093199670_1_alg».proof.Proof.PayIdx
import proofs.«160997_j46858093199670_1_alg».proof.Proof.Fold
import proofs.«160997_j46858093199670_1_alg».proof.Proof.Spec
import Idealize.ShloMosaic.Lib.Pipeline.Value

noncomputable section

namespace Cert.KernelIdeal.Val0

open Cert.KernelIdeal Cert.KernelIdeal.Gen Idealize.ShloMosaic Idealize.ShloMosaic.TcCoe Idealize.ShloMosaic.ValueIdx
open Idealize.ShloMosaic.Pipeline (Dat Cfg Window)
open Cert.KernelIdeal.Hand0 Cert.KernelIdeal.PayIdx Cert.Dist

/-- Where the windows' blocks sit at grid point t: the first window's block is matrix t / 16 whole, the second's is
    block t % 16 of its rows; the two accumulators' blocks are their whole one-entry arrays. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

variable (V : (c : Dev nD) → (b : Ref sig .tc) → Buf (Elt Ideal) ((c : Thread nD τ).loc b)) (c : Dev nD)

/-- An entry of the first window's block at point t is the argument's entry in matrix t / 16, same row, same column. -/
theorem iblk0_apply (t : Fin cfg0.N) (y : S1x4096x64.Idx) (k : S4x4096x64.Idx)
    (hk0 : (k 0).val = t.val / 16) (hk1 : (k 1).val = (y 1).val) (hk2 : (k 2).val = (y 2).val) :
    (iblk (F := Ideal) V c 0 t : Vec Ideal S1x4096x64 .f32) y = (V c main_arg0 : S4x4096x64.Idx → Elt Ideal .f32) k := by
  obtain ⟨e0, e1, e2, -⟩ := idx_facts t
  unfold iblk
  rw [View.read_apply]
  show V c main_arg0 _ = V c main_arg0 _
  congr 1
  funext a
  apply Fin.ext
  have h0 : (y 0).val < 1 := (y 0).isLt
  match a with
  | ⟨0, _⟩ => show win0_0.index t (0 : Fin 3) * 1 + 1 * (y 0).val = (k 0).val; rw [e0, hk0]; omega
  | ⟨1, _⟩ => show win0_0.index t (1 : Fin 3) * 4096 + 1 * (y 1).val = (k 1).val; rw [e1, hk1]; omega
  | ⟨2, _⟩ => show win0_0.index t (2 : Fin 3) * 64 + 1 * (y 2).val = (k 2).val; rw [e2, hk2]; omega

/-- An entry of the second window's block at point t is the argument's entry in matrix t / 16, row 256·(t % 16) + the
    row inside the block, same column. -/
theorem iblk1_apply (t : Fin cfg0.N) (y : S1x256x64.Idx) (k : S4x4096x64.Idx)
    (hk0 : (k 0).val = t.val / 16) (hk1 : (k 1).val = t.val % 16 * 256 + (y 1).val) (hk2 : (k 2).val = (y 2).val) :
    (iblk (F := Ideal) V c 1 t : Vec Ideal S1x256x64 .f32) y = (V c main_arg0 : S4x4096x64.Idx → Elt Ideal .f32) k := by
  obtain ⟨-, -, -, e0, e1, e2, -⟩ := idx_facts t
  unfold iblk
  rw [View.read_apply]
  show V c main_arg0 _ = V c main_arg0 _
  congr 1
  funext a
  apply Fin.ext
  have h0 : (y 0).val < 1 := (y 0).isLt
  match a with
  | ⟨0, _⟩ => show win0_1.index t (0 : Fin 3) * 1 + 1 * (y 0).val = (k 0).val; rw [e0, hk0]; omega
  | ⟨1, _⟩ => show win0_1.index t (1 : Fin 3) * 256 + 1 * (y 1).val = (k 1).val; rw [e1, hk1]; omega
  | ⟨2, _⟩ => show win0_1.index t (2 : Fin 3) * 64 + 1 * (y 2).val = (k 2).val; rw [e2, hk2]; omega

variable (x : Cert.Dist.SX.Idx → EReal) (hx : V c main_arg0 = x)
include hx

/-- The first window's block at point n: all rows of matrix n / 16. -/
theorem blk0_eq (n : Nat) (h : n < cfg0.N) :
    (iblk (F := Ideal) V c 0 ⟨n, h⟩ : Vec Ideal S1x4096x64 .f32)
      = rows x ⟨n / 16, by have := lt64 ⟨n, h⟩; simp only at this; omega⟩ 4096 0 (by omega) := by
  subst hx
  funext y
  exact iblk0_apply V c ⟨n, h⟩ y _ rfl (Nat.zero_add _) rfl

/-- The second window's block at point n: rows 256·(n % 16) … of matrix n / 16. -/
theorem blk1_eq (n : Nat) (h : n < cfg0.N) :
    (iblk (F := Ideal) V c 1 ⟨n, h⟩ : Vec Ideal S1x256x64 .f32)
      = rows x ⟨n / 16, by have := lt64 ⟨n, h⟩; simp only at this; omega⟩ 256 (n % 16 * 256) (by omega) := by
  subst hx
  funext y
  exact iblk1_apply V c ⟨n, h⟩ y _ rfl rfl rfl

/-- The minimum accumulator after point n is the running minimum of the pieces up to n. -/
theorem accMin_eq : ∀ (n : Nat) (h : n < cfg0.N) (j : S1x1.Idx),
    accMin (F := Ideal) V c n h j = accLo x n (lt_of_lt_of_eq h N_0)
  | 0, h, j => by
    rw [accMin, minOut_apply, pay2_top, blk0_eq V c x hx 0 h, blk1_eq V c x hx 0 h, accLo, blockInf]
  | n + 1, h, j => by
    rw [accMin, minOut_apply, accMin_eq n (Nat.lt_of_succ_lt h) (ix2 0 0), blk0_eq V c x hx (n + 1) h,
      blk1_eq V c x hx (n + 1) h, accLo, blockInf]

/-- The maximum accumulator after point n is the running maximum of the pieces up to n. -/
theorem accMax_eq : ∀ (n : Nat) (h : n < cfg0.N) (j : S1x1.Idx),
    accMax (F := Ideal) V c n h j = accHi x n (lt_of_lt_of_eq h N_0)
  | 0, h, j => by
    rw [accMax, maxOut_apply, pay3_bot, blk0_eq V c x hx 0 h, blk1_eq V c x hx 0 h, accHi, blockSup]
  | n + 1, h, j => by
    rw [accMax, maxOut_apply, accMax_eq n (Nat.lt_of_succ_lt h) (ix2 0 0), blk0_eq V c x hx (n + 1) h,
      blk1_eq V c x hx (n + 1) h, accHi, blockSup]

omit hx in
/-- At the last piece the running minimum is the least distance, the running maximum the greatest. -/
theorem accLo_of_last (n : Nat) (h : n < 64) (hn : n = 63) : accLo x n h = lo x := by
  subst hn; exact accLo_last x

omit hx in
theorem accHi_of_last (n : Nat) (h : n < 64) (hn : n = 63) : accHi x n h = hi x := by
  subst hn; exact accHi_last x

omit hx in
/-- The last grid point. -/
abbrev tLast : Fin cfg0.N := ⟨63, by rw [show cfg0.N = 64 from N_0]; decide⟩

omit hx in
/-- Every index of a one-entry array lies in the block an accumulator's window writes back. -/
theorem mem_blk2 (t : Fin cfg0.N) (i : S1x1.Idx) : i ∈ ((cfg0.win 2).blk t).view.set := by
  obtain ⟨-, -, -, -, -, -, e0, e1, -⟩ := idx_facts t
  show i ∈ ((View.whole main_v0_0).slice (win0_2.rect t)).set
  rw [View.set_slice_whole, Rect.mem_set_unit]
  intro a
  have h0 : (i 0).val < 1 := (i 0).isLt
  have h1 : (i 1).val < 1 := (i 1).isLt
  match a with
  | ⟨0, _⟩ => show win0_2.index t (0 : Fin 2) * 1 ≤ (i 0).val ∧ (i 0).val < win0_2.index t (0 : Fin 2) * 1 + 1; rw [e0]; omega
  | ⟨1, _⟩ => show win0_2.index t (1 : Fin 2) * 1 ≤ (i 1).val ∧ (i 1).val < win0_2.index t (1 : Fin 2) * 1 + 1; rw [e1]; omega

omit hx in
theorem mem_blk3 (t : Fin cfg0.N) (i : S1x1.Idx) : i ∈ ((cfg0.win 3).blk t).view.set := by
  obtain ⟨-, -, -, -, -, -, -, -, e0, e1⟩ := idx_facts t
  show i ∈ ((View.whole main_v0_1).slice (win0_3.rect t)).set
  rw [View.set_slice_whole, Rect.mem_set_unit]
  intro a
  have h0 : (i 0).val < 1 := (i 0).isLt
  have h1 : (i 1).val < 1 := (i 1).isLt
  match a with
  | ⟨0, _⟩ => show win0_3.index t (0 : Fin 2) * 1 ≤ (i 0).val ∧ (i 0).val < win0_3.index t (0 : Fin 2) * 1 + 1; rw [e0]; omega
  | ⟨1, _⟩ => show win0_3.index t (1 : Fin 2) * 1 ≤ (i 1).val ∧ (i 1).val < win0_3.index t (1 : Fin 2) * 1 + 1; rw [e1]; omega

/-- The array of the minimum ends holding the least distance. -/
theorem final_min : (dat (F := Ideal) V c).arrAt 2 cfg0.N = fun _ => lo x := by
  have hlast : (cfg0.win 2).flush tLast = true := (flush0_2 tLast).mpr (by show 63 % 64 = 63; decide)
  have hcover : ∀ i : S1x1.Idx, ∃ t : Fin cfg0.N, (cfg0.win 2).flush t = true ∧ i ∈ ((cfg0.win 2).blk t).view.set :=
    fun i => ⟨tLast, hlast, mem_blk2 tLast i⟩
  refine (dat (F := Ideal) V c).arrAt_eq_of_cover 2 (fun _ : S1x1.Idx => lo x) (fun t hf => ?_) hcover
  have h63 : t.val = 63 := by have h1 := (flush0_2 t).mp hf; have h2 := lt64 t; omega
  show (cfg0.win 2).cut (grid0.coords t) ((dat (F := Ideal) V c).after 2 t) = _
  rw [after_2]
  funext y
  refine (accMin_eq V c x hx t.val t.isLt _).trans ((accLo_of_last x _ _ h63).trans ?_)
  rw [View.read_apply]
  exact (cast_eq _ _).symm

/-- The array of the maximum ends holding the greatest distance. -/
theorem final_max : (dat (F := Ideal) V c).arrAt 3 cfg0.N = fun _ => hi x := by
  have hlast : (cfg0.win 3).flush tLast = true := (flush0_3 tLast).mpr (by show 63 % 64 = 63; decide)
  have hcover : ∀ i : S1x1.Idx, ∃ t : Fin cfg0.N, (cfg0.win 3).flush t = true ∧ i ∈ ((cfg0.win 3).blk t).view.set :=
    fun i => ⟨tLast, hlast, mem_blk3 tLast i⟩
  refine (dat (F := Ideal) V c).arrAt_eq_of_cover 3 (fun _ : S1x1.Idx => hi x) (fun t hf => ?_) hcover
  have h63 : t.val = 63 := by have h1 := (flush0_3 t).mp hf; have h2 := lt64 t; omega
  show (cfg0.win 3).cut (grid0.coords t) ((dat (F := Ideal) V c).after 3 t) = _
  rw [after_3]
  funext y
  refine (accMax_eq V c x hx t.val t.isLt _).trans ((accHi_of_last x _ _ h63).trans ?_)
  rw [View.read_apply]
  exact (cast_eq _ _).symm

end Cert.KernelIdeal.Val0

end
-- ==== Proof.Value1.lean ====
/-
  The second region's final array. Its 256 grid points (b, i, j) — point t is (t / 64, t / 8 % 8, t % 8) — each
  write one 512 × 512 tile of matrix b's normalized distances: rows 512·i … 512·i + 511 against rows
  512·j … 512·j + 511, read off the two row blocks the point was handed, shifted by the least distance and divided
  by the spread, with one where the global row equals the global column. Each tile is the corresponding block of
  the specification's array, and the tiles cover the array — index (b, n, m) lies in the tile of point
  64·b + 8·(n / 512) + m / 512 —, so after the last point the array is the specification's.
-/
import proofs.«160997_j46858093199670_1_alg».proof.Proof.Dat1
import proofs.«160997_j46858093199670_1_alg».proof.Proof.PayIdx
import proofs.«160997_j46858093199670_1_alg».proof.Proof.Spec
import Idealize.ShloMosaic.Lib.Pipeline.Value
import Idealize.ShloMosaic.Lib.ValueIdx

noncomputable section

open scoped BigOperators

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices at grid point `t`, decided over the 256 points: the point is (t / 64, t / 8 % 8, t % 8); the tile
    written is that one; the row block read is (t / 64, t / 8 % 8), the column block (t / 64, t % 8). -/
theorem idx_facts : ∀ t : Fin cfg1.N,
    win1_4.index t (0 : Fin 3) = t.val / 64 ∧ win1_4.index t (1 : Fin 3) = t.val / 8 % 8 ∧ win1_4.index t (2 : Fin 3) = t.val % 8
    ∧ win1_0.index t (0 : Fin 3) = t.val / 64 ∧ win1_0.index t (1 : Fin 3) = t.val / 8 % 8 ∧ win1_0.index t (2 : Fin 3) = 0
    ∧ win1_1.index t (0 : Fin 3) = t.val / 64 ∧ win1_1.index t (1 : Fin 3) = t.val % 8 ∧ win1_1.index t (2 : Fin 3) = 0
    ∧ (grid1.coords t 1).val = t.val / 8 % 8 ∧ (grid1.coords t 2).val = t.val % 8 :=
  (by decide +kernel : ∀ t : Fin grid1.N, _)

/-- The distance read off two blocks that hold rows `n` and `m` of matrix `b` at `p` and `q`. -/
theorem dblk_eq_dist (x : Cert.Dist.SX.Idx → EReal) (u v : (⟨3, ![1, 512, 64]⟩ : Shape).Idx → EReal) (p q : Fin 512)
    (b : Fin 4) (n m : Fin 4096) (hu : ∀ k : Fin 64, u (ix3 0 p k) = x (ix3 b n k))
    (hv : ∀ k : Fin 64, v (ix3 0 q k) = x (ix3 b m k)) :
    Cert.Dist.dblk u v p q = Cert.Dist.dist x b n m := by
  unfold Cert.Dist.dblk Cert.Dist.dist Cert.Dist.sqn Cert.Dist.gram
  simp only [hu, hv]

/-- The row block at point `t`, entry (0, p, k): row (t / 8 % 8)·512 + p of matrix t / 64. -/
theorem iblk0_apply (c : Dev nD) (t : Fin cfg1.N) (p : Fin 512) (k : Fin 64) (b : Fin 4) (n : Fin 4096)
    (hb : b.val = t.val / 64) (hn : n.val = t.val / 8 % 8 * 512 + p.val) :
    (iblk V c 0 t : Vec Ideal S1x512x64 .f32) (ix3 0 p k) = (V c main_arg0 : S4x4096x64.Idx → EReal) (ix3 b n k) := by
  obtain ⟨-, -, -, e0, e1, e2, -, -, -, -, -⟩ := idx_facts t
  show (V c main_arg0 : S4x4096x64.Idx → EReal) (((cfg1.win 0).blk t).view.emb (ix3 0 p k : S1x512x64.Idx)) = _
  refine congrArg _ (funext fun a => Fin.ext ?_)
  match a with
  | ⟨0, _⟩ => show win1_0.index t (0 : Fin 3) * 1 + 1 * 0 = b.val; omega
  | ⟨1, _⟩ => show win1_0.index t (1 : Fin 3) * 512 + 1 * p.val = n.val; omega
  | ⟨2, _⟩ => show win1_0.index t (2 : Fin 3) * 64 + 1 * k.val = k.val; omega

/-- The column block at point `t`, entry (0, q, k): row (t % 8)·512 + q of matrix t / 64. -/
theorem iblk1_apply (c : Dev nD) (t : Fin cfg1.N) (q : Fin 512) (k : Fin 64) (b : Fin 4) (m : Fin 4096)
    (hb : b.val = t.val / 64) (hm : m.val = t.val % 8 * 512 + q.val) :
    (iblk V c 1 t : Vec Ideal S1x512x64 .f32) (ix3 0 q k) = (V c main_arg0 : S4x4096x64.Idx → EReal) (ix3 b m k) := by
  obtain ⟨-, -, -, -, -, -, e0, e1, e2, -, -⟩ := idx_facts t
  show (V c main_arg0 : S4x4096x64.Idx → EReal) (((cfg1.win 1).blk t).view.emb (ix3 0 q k : S1x512x64.Idx)) = _
  refine congrArg _ (funext fun a => Fin.ext ?_)
  match a with
  | ⟨0, _⟩ => show win1_1.index t (0 : Fin 3) * 1 + 1 * 0 = b.val; omega
  | ⟨1, _⟩ => show win1_1.index t (1 : Fin 3) * 512 + 1 * q.val = m.val; omega
  | ⟨2, _⟩ => show win1_1.index t (2 : Fin 3) * 64 + 1 * k.val = k.val; omega

/-- WHAT POINT `t` WRITES BACK is its block of the specification's array. -/
theorem flushed_eq (c : Dev nD) (x : Cert.Dist.SX.Idx → EReal) (hx : V c main_arg0 = x)
    (h2 : ∀ j, V c main_v0_0 j = Cert.Dist.lo x) (h3 : ∀ j, V c main_v0_1 j = Cert.Dist.hi x) (t : Fin cfg1.N) :
    (dat V c).flushed 4 t = ((cfg1.win 4).blk t).view.read (Elt Ideal) (Cert.Dist.G x) := by
  show (cfg1.win 4).cut (grid1.coords t) ((dat V c).after 4 t) = _
  rw [after_4]
  obtain ⟨f0, f1, f2, -, -, -, -, -, -, g1, g2⟩ := idx_facts t
  have ht : t.val < 256 := Nat.lt_of_lt_of_eq t.isLt N_1
  funext y
  obtain ⟨u, p, q, rfl⟩ : ∃ (u : Fin 1) (p q : Fin 512), y = (ix3 u p q : S1x512x512.Idx) :=
    ⟨(y : S1x512x512.Idx) 0, (y : S1x512x512.Idx) 1, (y : S1x512x512.Idx) 2, eq_ix3 (y : S1x512x512.Idx)⟩
  obtain rfl : u = 0 := Subsingleton.elim _ _
  show tileOut (grid1.coords t) (iblk V c 0 t) (iblk V c 1 t) (iblk V c 2 t) (iblk V c 3 t) (ix3 0 p q)
    = Cert.Dist.G x (((cfg1.win 4).blk t).view.emb (ix3 0 p q : S1x512x512.Idx))
  have hj : ((cfg1.win 4).blk t).view.emb (ix3 0 p q : S1x512x512.Idx)
      = (ix3 (⟨t.val / 64, by omega⟩ : Fin 4) (⟨t.val / 8 % 8 * 512 + p.val, by omega⟩ : Fin 4096)
          (⟨t.val % 8 * 512 + q.val, by omega⟩ : Fin 4096) : S4x4096x4096.Idx) :=
    funext fun a => Fin.ext (by
      match a with
      | ⟨0, _⟩ => show win1_4.index t (0 : Fin 3) * 1 + 1 * 0 = t.val / 64; omega
      | ⟨1, _⟩ => show win1_4.index t (1 : Fin 3) * 512 + 1 * p.val = t.val / 8 % 8 * 512 + p.val; omega
      | ⟨2, _⟩ => show win1_4.index t (2 : Fin 3) * 512 + 1 * q.val = t.val % 8 * 512 + q.val; omega)
  rw [hj, Cert.Dist.G_ix3]
  refine (PayIdx.tileOut_apply (grid1.coords t) (iblk V c 0 t) (iblk V c 1 t) (iblk V c 2 t) (iblk V c 3 t) p q).trans ?_
  refine if_congr (by rw [g1, g2]) rfl ?_
  have hd : Cert.Dist.dblk (iblk V c 0 t : Vec Ideal S1x512x64 .f32) (iblk V c 1 t : Vec Ideal S1x512x64 .f32) p q
      = Cert.Dist.dist x (⟨t.val / 64, by omega⟩ : Fin 4) (⟨t.val / 8 % 8 * 512 + p.val, by omega⟩ : Fin 4096)
          (⟨t.val % 8 * 512 + q.val, by omega⟩ : Fin 4096) :=
    dblk_eq_dist x _ _ p q _ _ _
      (fun k => (iblk0_apply V c t p k _ _ rfl rfl).trans (congrFun hx _))
      (fun k => (iblk1_apply V c t q k _ _ rfl rfl).trans (congrFun hx _))
  have e2 : (iblk V c 2 t : Vec Ideal S1x1 .f32) (ix2 0 0) = Cert.Dist.lo x := h2 _
  have e3 : (iblk V c 3 t : Vec Ideal S1x1 .f32) (ix2 0 0) = Cert.Dist.hi x := h3 _
  rw [hd, e2, e3]

/-- An index of the array is in point `t`'s tile iff each coordinate is in the tile's range on its axis. -/
theorem mem_blk (t : Fin cfg1.N) (i : S4x4096x4096.Idx) :
    i ∈ ((cfg1.win 4).blk t).view.set ↔ ∀ a : Fin 3, win1_4.index t a * S1x512x512.size a ≤ (i a).val
      ∧ (i a).val < win1_4.index t a * S1x512x512.size a + S1x512x512.size a := by
  show i ∈ ((View.whole main_v1).slice (win1_4.rect t)).set ↔ _
  rw [View.set_slice_whole, Rect.mem_set_unit]
  exact Iff.rfl

/-- Every index (b, n, m) of the array lies in the tile of point 64·b + 8·(n / 512) + m / 512. -/
theorem cover (i : S4x4096x4096.Idx) :
    ∃ t : Fin cfg1.N, (cfg1.win 4).flush t = true ∧ i ∈ ((cfg1.win 4).blk t).view.set := by
  have h0 : (i 0).val < 4 := (i 0).isLt
  have h1 : (i 1).val < 4096 := (i 1).isLt
  have h2 : (i 2).val < 4096 := (i 2).isLt
  obtain ⟨t, ht⟩ : ∃ t : Fin cfg1.N, t.val = (i 0).val * 64 + (i 1).val / 512 * 8 + (i 2).val / 512 :=
    ⟨⟨(i 0).val * 64 + (i 1).val / 512 * 8 + (i 2).val / 512, Nat.lt_of_lt_of_eq (by omega) N_1.symm⟩, rfl⟩
  obtain ⟨f0, f1, f2, -, -, -, -, -, -, -, -⟩ := idx_facts t
  refine ⟨t, flush1_4 t, ?_⟩
  rw [mem_blk]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 512 ≤ (i 1).val ∧ (i 1).val < win1_4.index t (1 : Fin 3) * 512 + 512
    omega
  | ⟨2, _⟩ =>
    show win1_4.index t (2 : Fin 3) * 512 ≤ (i 2).val ∧ (i 2).val < win1_4.index t (2 : Fin 3) * 512 + 512
    omega

/-- THE ARRAY after the second region: the normalized distance matrix with its diagonal set to one. -/
theorem final_tile (c : Dev nD) (x : Cert.Dist.SX.Idx → EReal) (hx : V c main_arg0 = x)
    (h2 : ∀ j, V c main_v0_0 j = Cert.Dist.lo x) (h3 : ∀ j, V c main_v0_1 j = Cert.Dist.hi x) :
    (Cert.KernelIdeal.Hand.dat (F := Ideal) V c).arrAt 4 cfg1.N = Cert.Dist.G x :=
  (dat V c).arrAt_eq_of_cover 4 (Cert.Dist.G x) (fun t _ => flushed_eq V c x hx h2 h3 t) cover

end Cert.KernelIdeal.Val1

end
-- ==== Proof.RefA.lean ====
/-
  The least and the greatest entry of a whole array, as a reduction over all of its axes computes them.

  A reduction of an array over every axis, by `min` from a starting value `b`, is `min b` of the infimum of the
  array's entries (the order of the fold is immaterial: `min` commutes and associates); by `max` it is `max b` of
  their supremum. For a rank-three array the entries are indexed by the triples of coordinates, so the infimum and
  the supremum are those of the family over the triples.
-/
import Idealize.ShloMosaic.PureOps.Reduce
import Idealize.ShloMosaic.PureOps.Ideal.Laws
import Idealize.ShloMosaic.Lib.ValueIdx

noncomputable section

namespace Cert.ReferenceIdeal.RefValue

open Idealize.ShloMosaic Idealize.ShloMosaic.ValueIdx

/-- A fold of `min` from `b` over a finite set is the least of `b` and the infimum over the set. -/
theorem fold_min_eq {ι : Type} (s : Finset ι) (y : ι → EReal) (b : EReal) :
    s.fold (FloatOps.minimumf (F := Ideal) (φ := .f32)) b y = min b (s.inf y) := by
  classical
  induction s using Finset.induction_on with
  | empty => simp
  | insert a s ha ih =>
    rw [Finset.fold_insert ha, ih, Finset.inf_insert]
    exact min_left_comm _ _ _

/-- A fold of `max` from `b` over a finite set is the greatest of `b` and the supremum over the set. -/
theorem fold_max_eq {ι : Type} (s : Finset ι) (y : ι → EReal) (b : EReal) :
    s.fold (FloatOps.maximumf (F := Ideal) (φ := .f32)) b y = max b (s.sup y) := by
  classical
  induction s using Finset.induction_on with
  | empty => simp
  | insert a s ha ih =>
    rw [Finset.fold_insert ha, ih, Finset.sup_insert]
    exact max_left_comm _ _ _

/-- The infimum of a rank-three array's entries is the infimum over the triples of coordinates. -/
theorem inf_idx3 {n0 n1 n2 : Nat} (y : (⟨3, ![n0, n1, n2]⟩ : Shape).Idx → EReal) :
    Finset.univ.inf y = Finset.univ.inf fun p : Fin n0 × Fin n1 × Fin n2 => y (ix3 p.1 p.2.1 p.2.2) := by
  refine le_antisymm (Finset.le_inf fun p _ => Finset.inf_le (Finset.mem_univ _)) (Finset.le_inf fun i _ => ?_)
  exact (Finset.inf_le (f := fun p : Fin n0 × Fin n1 × Fin n2 => y (ix3 p.1 p.2.1 p.2.2))
    (Finset.mem_univ ((i 0, i 1, i 2) : Fin n0 × Fin n1 × Fin n2))).trans (le_of_eq (congrArg y (eq_ix3 i).symm))

/-- The supremum of a rank-three array's entries is the supremum over the triples of coordinates. -/
theorem sup_idx3 {n0 n1 n2 : Nat} (y : (⟨3, ![n0, n1, n2]⟩ : Shape).Idx → EReal) :
    Finset.univ.sup y = Finset.univ.sup fun p : Fin n0 × Fin n1 × Fin n2 => y (ix3 p.1 p.2.1 p.2.2) := by
  refine le_antisymm (Finset.sup_le fun i _ => ?_) (Finset.sup_le fun p _ => Finset.le_sup (Finset.mem_univ _))
  exact (le_of_eq (congrArg y (eq_ix3 i))).trans (Finset.le_sup (f := fun p : Fin n0 × Fin n1 × Fin n2 => y (ix3 p.1 p.2.1 p.2.2))
    (Finset.mem_univ ((i 0, i 1, i 2) : Fin n0 × Fin n1 × Fin n2)))

/-- A reduction by `min` over every axis, into the one-entry array of rank zero: the least of the starting value
    and all the entries. -/
theorem reduce_min_scalar {s : Shape} {axes : List (Fin s.rank)} (y : s.Idx → EReal)
    (init : (⟨0, ![]⟩ : Shape).Idx → EReal) (h : s.ReducesTo axes ⟨0, ![]⟩) (hu : 0 < (⟨0, ![]⟩ : Shape).numel)
    (j : (⟨0, ![]⟩ : Shape).Idx) :
    Host.reduce (FloatOps.minimumf (F := Ideal) (φ := .f32)) y init h hu j
      = min (init (Shape.Idx.first hu)) (Finset.univ.inf y) := by
  rw [Host.reduce_eq_fold, Finset.filter_true_of_mem (fun i _ => funext fun a => a.elim0), fold_min_eq]

/-- A reduction by `max` over every axis, into the one-entry array of rank zero: the greatest of the starting value
    and all the entries. -/
theorem reduce_max_scalar {s : Shape} {axes : List (Fin s.rank)} (y : s.Idx → EReal)
    (init : (⟨0, ![]⟩ : Shape).Idx → EReal) (h : s.ReducesTo axes ⟨0, ![]⟩) (hu : 0 < (⟨0, ![]⟩ : Shape).numel)
    (j : (⟨0, ![]⟩ : Shape).Idx) :
    Host.reduce (FloatOps.maximumf (F := Ideal) (φ := .f32)) y init h hu j
      = max (init (Shape.Idx.first hu)) (Finset.univ.sup y) := by
  rw [Host.reduce_eq_fold, Finset.filter_true_of_mem (fun i _ => funext fun a => a.elim0), fold_max_eq]

end Cert.ReferenceIdeal.RefValue

end
-- ==== Proof.RefS.lean ====
/-
  The scalar facts of the distance program, on the extended reals.

  A number clamped from below at zero has a nonnegative root; taking the root only where the number is positive,
  with the root's argument replaced by any other number elsewhere, and zero elsewhere, is the root itself (the root
  of zero is zero); and adding "the magnitude of m where m is negative, zero elsewhere" adds zero when m is not
  negative. The diagonal of a square array of side 4096 is where the two coordinates' 32-bit words agree.
-/
import Idealize.ShloMosaic.PureOps.Ideal.Laws
import Idealize.ShloMosaic.Lib.ValueIdx
import Idealize.ShloMosaic.Lib.Affine

noncomputable section

namespace Cert.ReferenceIdeal.RefValue

open Idealize.ShloMosaic Idealize.ShloMosaic.ValueIdx

/-- The root of zero is zero. -/
theorem sqrt_zero : Ideal.sqrt 0 = 0 := by
  rw [← EReal.coe_zero, Ideal.sqrt_coe, if_neg (lt_irrefl _), Real.sqrt_zero]

/-- The root of a nonnegative number is nonnegative. -/
theorem sqrt_nonneg {d : EReal} (hd : 0 ≤ d) : 0 ≤ Ideal.sqrt d := by
  induction d using EReal.rec with
  | bot => exact absurd hd (by simp)
  | top => simp
  | coe r =>
    have hr : 0 ≤ r := by exact_mod_cast hd
    rw [Ideal.sqrt_coe, if_neg (not_lt.mpr hr)]
    exact_mod_cast Real.sqrt_nonneg r

/-- The root taken only where the number is positive — its argument replaced by `o` elsewhere — and `z = 0`
    elsewhere, is the root, for a nonnegative number. -/
theorem safe_sqrt {d z z' z'' o : EReal} (hz : z = 0) (hz' : z' = 0) (hz'' : z'' = 0) (hd : 0 ≤ d) :
    Scalar.select (Ideal.cmp .ogt d z) (Ideal.sqrt (Scalar.select (Ideal.cmp .ogt d z') d o)) z'' = Ideal.sqrt d := by
  subst hz hz' hz''
  by_cases h : (0 : EReal) < d
  · have e : Ideal.cmp .ogt d 0 = 1#1 := by simp [Ideal.cmp, h]
    rw [e, select_one, select_one]
  · have h0 : d = 0 := le_antisymm (not_lt.mp h) hd
    have e : Ideal.cmp .ogt d 0 = 0#1 := by simp [Ideal.cmp, h]
    rw [e, select_zero, h0, sqrt_zero]

/-- "The magnitude of `m` where `m` is negative, `z' = 0` elsewhere" is zero for a nonnegative `m`. -/
theorem shift_zero {m z z' : EReal} (hz : z = 0) (hz' : z' = 0) (hm : 0 ≤ m) :
    Scalar.select (Ideal.cmp .olt m z) (max m (-m)) z' = 0 := by
  subst hz hz'
  have e : Ideal.cmp .olt m 0 = 0#1 := by simp [Ideal.cmp, not_lt.mpr hm]
  rw [e, select_zero]

/-- The words of two row numbers below 4096 agree exactly when the numbers do. -/
theorem diag_word (n m : Nat) (hn : n < 4096) (hm : m < 4096) :
    IntOp.cmpi .eq (IntOp.addi (BitVec.ofNat 32 n) 0#32) (BitVec.ofNat 32 m) = if n = m then 1#1 else 0#1 := by
  have h0 : IntOp.addi (BitVec.ofNat 32 n) 0#32 = BitVec.ofNat 32 n := BitVec.add_zero _
  rw [h0]
  by_cases h : n = m
  · rw [if_pos h, IntOp.cmpi_eq, h]
  · rw [if_neg h]
    refine eq_zero_of_ne_one fun e => h ?_
    have := congrArg BitVec.toNat (IntOp.cmpi_eq.mp e)
    rw [BitVec.toNat_ofNat, BitVec.toNat_ofNat] at this
    omega

/-- The word of plus infinity is the top element, the word of minus infinity the bottom one. -/
theorem ofBits_pinf : Ideal.ofBits .f32 0x7F800000#32 = ⊤ := by simp [Ideal.ofBits, Ideal.ieee]
theorem ofBits_ninf : Ideal.ofBits .f32 0xFF800000#32 = ⊥ := by simp [Ideal.ofBits, Ideal.ieee]

end Cert.ReferenceIdeal.RefValue

end
-- ==== Proof.RefB.lean ====
/-
  The clamped squared distance, as the reference program computes it, read at one entry.

  The program sums the squares along each row (from the starting value zero), lays the row sums out along the second
  and along the third axis, adds them, subtracts twice the contraction of the rows, and clamps at zero. At the entry
  (b, n, m) this is  max (|x_n|² + |x_m|² − 2·⟨x_n, x_m⟩, 0)  for the rows n and m of matrix b.
-/
import proofs.«160997_j46858093199670_1_alg».proof.Proof.Gen.ReferenceIdeal.Read
import proofs.«160997_j46858093199670_1_alg».proof.Proof.Spec

noncomputable section

namespace Cert.ReferenceIdeal.RefValue

open Cert.ReferenceIdeal Cert.ReferenceIdeal.Read Idealize.ShloMosaic Idealize.ShloMosaic.ValueIdx Cert.Dist

/-- The argument array's type, as the program's stages take it. -/
abbrev XT : Type := (⟨S4x4096x64, .f32⟩ : BufTy).Contents (Elt Ideal)

/-- The row sums of squares: entry (b, n) is the squared norm of row n of matrix b. -/
theorem rowsq_at (x : XT) (b : Fin 4) (n : Fin 4096) :
    val_main_v1 (F := Ideal) x (ix2 b n) = sqn x b n := by
  have e : ∀ k : Fin 64, idx_main_v1 (ix2 b n) k = ix3 b n k := fun k => funext fun a => Fin.ext (by
    match a with | ⟨0, _⟩ => rfl | ⟨1, _⟩ => rfl | ⟨2, _⟩ => rfl)
  rw [val_main_v1_apply, val_main_cst_apply]
  simp only [val_main_v0_apply, e, Ideal.ofBits_def, Ideal.ofBits_zero_f32, zero_add, Ideal.mulf_def]
  rfl

/-- Laid out along the second axis: entry (b, n, m) is the squared norm of row n. -/
theorem sq_left_at (x : XT) (b : Fin 4) (n m : Fin 4096) :
    val_main_v4 (F := Ideal) x (ix3 b n m) = sqn x b n := by
  have e : idx_main_v2 (idx_main_v4 (ix3 b n m)) = ix2 b n := funext fun a => Fin.ext (by
    match a with | ⟨0, _⟩ => rfl | ⟨1, _⟩ => rfl)
  rw [val_main_v4_apply, val_main_v2_apply, e, rowsq_at]

/-- Laid out along the third axis: entry (b, n, m) is the squared norm of row m. -/
theorem sq_right_at (x : XT) (b : Fin 4) (n m : Fin 4096) :
    val_main_v5 (F := Ideal) x (ix3 b n m) = sqn x b m := by
  have e : idx_main_v3 (idx_main_v5 (ix3 b n m)) = ix2 b m := funext fun a => Fin.ext (by
    match a with | ⟨0, _⟩ => rfl | ⟨1, _⟩ => rfl)
  rw [val_main_v5_apply, val_main_v3_apply, e, rowsq_at]

/-- The contraction: entry (b, n, m) is the inner product of rows n and m. -/
theorem gram_at (x : XT) (b : Fin 4) (n m : Fin 4096) :
    val_main_v7 (F := Ideal) x (ix3 b n m) = gram x b n m := by
  have el : ∀ k : Fin 64, lidx_main_v7 (ix3 b n m) k = ix3 b n k := fun k => funext fun a => Fin.ext (by
    match a with | ⟨0, _⟩ => rfl | ⟨1, _⟩ => rfl | ⟨2, _⟩ => rfl)
  have er : ∀ k : Fin 64, ridx_main_v7 (ix3 b n m) k = ix3 b m k := fun k => funext fun a => Fin.ext (by
    match a with | ⟨0, _⟩ => rfl | ⟨1, _⟩ => rfl | ⟨2, _⟩ => rfl)
  rw [val_main_v7_apply]
  simp only [el, er]
  rfl

/-- The clamped squared distance at the entry (b, n, m). -/
theorem d2_at (x : XT) (b : Fin 4) (n m : Fin 4096) :
    val_main_v12 (F := Ideal) x (ix3 b n m)
      = max (sqn x b n + sqn x b m - Ideal.ofBits .f32 0x40000000#32 * gram x b n m) (Ideal.ofBits .f32 0x00000000#32) := by
  rw [val_main_v12_apply, val_main_v10_apply, val_main_v6_apply, val_main_v9_apply, sq_left_at, sq_right_at, gram_at,
    val_main_v8_apply, val_main_cst_0_apply, val_main_v11_apply, val_main_cst_1_apply]
  rfl

end Cert.ReferenceIdeal.RefValue

end
-- ==== Proof.RefC.lean ====
/-
  The distance, as the reference program computes it, read at one entry; the least and the greatest distance.

  The program takes the root of the clamped squared distance only where it is positive (replacing the root's argument
  by one elsewhere) and puts zero elsewhere: that is the root, because the clamped number is never negative and the
  root of zero is zero. Its reduction by minimum over all three axes, from plus infinity, is the least distance; no
  distance is negative, so the shift the program applies when the least entry is negative adds zero, and the second
  minimum and the maximum (from minus infinity) are again the least and the greatest distance.
-/
import proofs.«160997_j46858093199670_1_alg».proof.Proof.RefA
import proofs.«160997_j46858093199670_1_alg».proof.Proof.RefS
import proofs.«160997_j46858093199670_1_alg».proof.Proof.RefB

noncomputable section

namespace Cert.ReferenceIdeal.RefValue

open Cert.ReferenceIdeal Cert.ReferenceIdeal.Read Idealize.ShloMosaic Idealize.ShloMosaic.ValueIdx Cert.Dist

/-- The clamped squared distance is not negative. -/
theorem clamp_nonneg (a : EReal) : 0 ≤ max a (Ideal.ofBits .f32 0x00000000#32) :=
  le_max_of_le_right (le_of_eq Ideal.ofBits_zero_f32.symm)

/-- No distance is negative. -/
theorem dist_nonneg (x : XT) (b : Fin 4) (n m : Fin 4096) : 0 ≤ dist x b n m :=
  sqrt_nonneg (clamp_nonneg _)

/-- The guarded root at the entry (b, n, m) is the distance between rows n and m of matrix b. -/
theorem dist_at (x : XT) (b : Fin 4) (n m : Fin 4096) :
    val_main_v19 (F := Ideal) x (ix3 b n m) = dist x b n m := by
  rw [val_main_v19_apply, val_main_v17_apply, val_main_v18_apply, val_main_v15_apply, val_main_v14_apply,
    val_main_v16_apply, val_main_cst_4_apply, val_main_v13_apply, val_main_cst_2_apply, val_main_call0_v1_apply,
    val_main_call0_v0_apply, val_main_cst_3_apply, val_main_call1_v1_apply, val_main_call1_v0_apply,
    val_main_cst_5_apply, d2_at]
  exact safe_sqrt Ideal.ofBits_zero_f32 Ideal.ofBits_zero_f32 Ideal.ofBits_zero_f32 (clamp_nonneg _)

/-- The least distance is not negative. -/
theorem lo_nonneg (x : XT) : 0 ≤ lo x :=
  Finset.le_inf fun p _ => dist_nonneg x p.1 p.2.1 p.2.2

/-- The reduction of the distances by minimum over all three axes, from a starting value that is plus infinity, is the
    least distance. -/
theorem least_eq (x : XT) (init : S_.Idx → EReal) (h : S4x4096x4096.ReducesTo [0, 1, 2] S_) (hu : 0 < S_.numel)
    (hinit : init (Shape.Idx.first hu) = ⊤) (j : S_.Idx) :
    Host.reduce (FloatOps.minimumf (F := Ideal) (φ := .f32)) (val_main_v19 (F := Ideal) x) init h hu j = lo x := by
  rw [reduce_min_scalar, hinit, min_eq_right le_top, inf_idx3]
  exact Finset.inf_congr rfl fun p _ => dist_at x p.1 p.2.1 p.2.2

/-- The reduction of the distances by maximum over all three axes, from a starting value that is minus infinity, is the
    greatest distance. -/
theorem greatest_eq (x : XT) (init : S_.Idx → EReal) (h : S4x4096x4096.ReducesTo [0, 1, 2] S_) (hu : 0 < S_.numel)
    (hinit : init (Shape.Idx.first hu) = ⊥) (j : S_.Idx) :
    Host.reduce (FloatOps.maximumf (F := Ideal) (φ := .f32)) (val_main_v19 (F := Ideal) x) init h hu j = hi x := by
  rw [reduce_max_scalar, hinit, max_eq_right bot_le, sup_idx3]
  exact Finset.sup_congr rfl fun p _ => dist_at x p.1 p.2.1 p.2.2

/-- The first minimum is the least distance. -/
theorem first_min_eq (x : XT) (j : S_.Idx) : val_main_v20 (F := Ideal) x j = lo x := by
  unfold val_main_v20
  exact least_eq x _ _ _ ofBits_pinf j

/-- The shifted array is the array of distances: the shift is zero. -/
theorem shifted_eq (x : XT) : val_main_v25 (F := Ideal) x = val_main_v19 (F := Ideal) x := by
  funext i
  rw [val_main_v25_apply, val_main_v24_apply, val_main_v23_apply, val_main_v21_apply, val_main_v22_apply,
    val_main_call2_v0_apply, val_main_cst_8_apply, val_main_cst_7_apply, first_min_eq]
  have e := shift_zero (m := lo x) Ideal.ofBits_zero_f32 Ideal.ofBits_zero_f32 (lo_nonneg x)
  show val_main_v19 (F := Ideal) x i
    + Scalar.select (Ideal.cmp .olt (lo x) (Ideal.ofBits .f32 0x00000000#32)) (max (lo x) (-lo x))
        (Ideal.ofBits .f32 0x00000000#32) = _
  rw [e, add_zero]

/-- The second minimum is the least distance. -/
theorem second_min_eq (x : XT) (j : S_.Idx) : val_main_v26 (F := Ideal) x j = lo x := by
  unfold val_main_v26
  rw [shifted_eq]
  exact least_eq x _ _ _ ofBits_pinf j

/-- The maximum is the greatest distance. -/
theorem max_eq (x : XT) (j : S_.Idx) : val_main_v27 (F := Ideal) x j = hi x := by
  unfold val_main_v27
  rw [shifted_eq]
  exact greatest_eq x _ _ _ ofBits_ninf j

end Cert.ReferenceIdeal.RefValue

end
-- ==== Proof.RefIsG.lean ====
/-
  The reference program computes the normalized distance matrix.

  After the distances, their least value `lo` and their greatest value `hi`, the program subtracts `lo`, divides by
  `hi − lo`, and writes one on the diagonal: the diagonal mask compares the word of the row number (plus the zero
  word) with the word of the column number, which agree exactly when the two numbers do, both being below 4096.
  Entry by entry this is the function `G` of the specification.
-/
import proofs.«160997_j46858093199670_1_alg».proof.Proof.RefC

noncomputable section

namespace Cert.ReferenceIdeal.RefValue

open Cert.ReferenceIdeal Cert.ReferenceIdeal.Read Idealize.ShloMosaic Idealize.ShloMosaic.ValueIdx Cert.Dist

/-- The diagonal mask at the entry (b, n, m): the bit "n = m". -/
theorem mask_at (b : Fin 4) (n m : Fin 4096) :
    val_main_call3_v0 (F := Ideal) (ix3 b n m) = if n.val = m.val then 1#1 else 0#1 := by
  rw [val_main_call3_v0_apply, val_main_v38_apply, val_main_v37_apply, val_main_v36_apply, val_main_v33_apply,
    val_main_v35_apply, val_main_c_apply, val_main_v34_apply]
  exact diag_word n.val m.val n.isLt m.isLt

/-- The normalized distance at the entry (b, n, m). -/
theorem normalized_at (x : XT) (b : Fin 4) (n m : Fin 4096) :
    val_main_v32 (F := Ideal) x (ix3 b n m) = Ideal.div (dist x b n m - lo x) (hi x - lo x) := by
  rw [val_main_v32_apply, val_main_v29_apply, val_main_v31_apply, val_main_v30_apply, val_main_v28_apply,
    shifted_eq, dist_at, second_min_eq, max_eq]
  rfl

/-- The reference program's result is the normalized distance matrix with its diagonal set to one. -/
theorem ref_is_G (x : (⟨Cert.ReferenceIdeal.S4x4096x64, .f32⟩ : BufTy).Contents (Elt Ideal)) :
    Cert.ReferenceIdeal.Read.val_main_v39 (F := Ideal) x = Cert.Dist.G x := by
  funext j
  obtain ⟨b, n, m, rfl⟩ : ∃ (b : Fin 4) (n m : Fin 4096), j = ix3 b n m := ⟨j 0, j 1, j 2, eq_ix3 j⟩
  rw [G_ix3, val_main_v39_apply, mask_at, normalized_at, val_main_call3_v1_apply, val_main_cst_11_apply]
  by_cases h : n.val = m.val
  · rw [if_pos h, if_pos h, select_one]; rfl
  · rw [if_neg h, if_neg h, select_zero]

end Cert.ReferenceIdeal.RefValue

end
-- ==== Proof.Final.lean ====
/-
  The five conjuncts. Both kernels' frames are the whole run with its result dropped; the reference's frame is its
  run with the result dropped. For the values: the idealized kernel's result array is, tile by tile, the normalized
  distance matrix G of the argument — its two one-word arrays having ended at the least and the greatest distance —
  and the reference's composed term is the same G, index by index.
-/
import proofs.«160997_j46858093199670_1_alg».proof.Defs
import proofs.«160997_j46858093199670_1_alg».proof.Proof.Run
import proofs.«160997_j46858093199670_1_alg».proof.Proof.KRun
import proofs.«160997_j46858093199670_1_alg».proof.Proof.Value0
import proofs.«160997_j46858093199670_1_alg».proof.Proof.Value1
import proofs.«160997_j46858093199670_1_alg».proof.Proof.RefIsG
import proofs.«160997_j46858093199670_1_alg».proof.Proof.Gen.ReferenceIdeal.Run
import proofs.«160997_j46858093199670_1_alg».proof.Proof.Gen.ReferenceIdeal.Read
import proofs.«160997_j46858093199670_1_alg».proof.Proof.Gen.Pre_finite_inputs

noncomputable section

namespace Cert.Proof.Parts

open Idealize.ShloMosaic Idealize.ShloMosaic.TcCoe Idealize.SL.Sem

/-- The idealized kernel's result array after the run: the second region's write-backs leave G of the argument,
    the first region's having left the least and the greatest distance in the two one-word arrays. -/
theorem final (m : (ℓ : Loc Cert.KernelIdeal.nD Cert.KernelIdeal.τ Cert.KernelIdeal.sig) → Buf (Elt Ideal) ℓ) (c : Dev Cert.KernelIdeal.nD) :
    (Cert.KernelIdeal.Hand.dat (F := Ideal) (Cert.KernelIdeal.Run.Vt1 m) c).arrAt 4 Cert.KernelIdeal.cfg1.N
      = Cert.Dist.G (m ((c.tc : Thread Cert.KernelIdeal.nD Cert.KernelIdeal.τ).loc Cert.KernelIdeal.main_arg0)) :=
  Cert.KernelIdeal.Val1.final_tile (Cert.KernelIdeal.Run.Vt1 m) c _ (Cert.KernelIdeal.Run.W1_arg0 m c)
    (fun j => by
      show Cert.KernelIdeal.Run.W1 m c Cert.KernelIdeal.main_v0_0 j = _
      rw [Cert.KernelIdeal.Run.W1_v0_0, Cert.KernelIdeal.Val0.final_min (Cert.KernelIdeal.Run.Vt0 m) c _ rfl])
    (fun j => by
      show Cert.KernelIdeal.Run.W1 m c Cert.KernelIdeal.main_v0_1 j = _
      rw [Cert.KernelIdeal.Run.W1_v0_1, Cert.KernelIdeal.Val0.final_max (Cert.KernelIdeal.Run.Vt0 m) c _ rfl])

theorem frame_k : Cert.frame_Kernel := fun m ρ _ =>
  (θ_run Cert.Kernel.defs _ _).mono (fun _ h c => (h c).2) (Cert.Kernel.Run.run_all (F := Bits) m ρ)

theorem frame_ki : Cert.frame_KernelIdeal := fun m ρ _ =>
  (θ_run Cert.KernelIdeal.defs _ _).mono (fun _ h c => (h c).2) (Cert.KernelIdeal.Run.run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.Dist.G (m ((c.tc : Thread Cert.KernelIdeal.nD Cert.KernelIdeal.τ).loc Cert.KernelIdeal.main_arg0)), ?_, ?_⟩
  · exact (θ_run Cert.KernelIdeal.defs _ _).mono (fun r h c => ⟨(h c).1.trans (final m c), (h c).2⟩)
      (Cert.KernelIdeal.Run.run_all (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v39_eq, Cert.ReferenceIdeal.RefValue.ref_is_G, hagree c]

end Cert.Proof.Parts

end
-- ==== Proof.lean ====
/- The proof of `Cert.Claim`: pairwise Euclidean distances of the rows of four 4096 × 64 matrices, normalized by
   their global minimum and maximum with the diagonal set to one. The kernel computes the two extrema in a first
   region (a fold over 64 grid points into two one-word accumulators) and the normalized tiles in a second; the
   reference computes the whole matrix at once. The modules: Spec (the function G, stated once), Body0 / Body1 and
   Dat0 / Dat1 (what each region's body leaves in its windows at each grid point), Run (the two regions in order, from
   launch to return), PayIdx and Value0 / Value1 (the kernels' arithmetic read at an index and folded to G), Fold and
   RefIsG (the extrema as one infimum and supremum; the reference's term is G), Final (the five conjuncts). -/
import proofs.«160997_j46858093199670_1_alg».proof.Defs
import proofs.«160997_j46858093199670_1_alg».proof.Proof.Final
import proofs.«160997_j46858093199670_1_alg».proof.Proof.Gen.Kernel
import proofs.«160997_j46858093199670_1_alg».proof.Proof.Gen.KernelIdeal
import proofs.«160997_j46858093199670_1_alg».proof.Proof.Gen.ReferenceIdeal
import proofs.«160997_j46858093199670_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves, Parts.algebraic⟩

end Cert.Proof

end
